-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S_ : Shape := ⟨0, ![]⟩
abbrev S8192x3 : Shape := ⟨2, ![8192, 3]⟩
abbrev S8192 : Shape := ⟨1, ![8192]⟩

class Facts : Prop where
  reducesTo_S_S_d : S_.ReducesTo [] S_
  h_S_ : 0 < S_.numel
  bcast_S_S8192x3 : S_.BroadcastsInDim S8192x3 (![] : Fin 0 → Fin S8192x3.rank)
  reducesTo_S8192x3_S_d0_1 : S8192x3.ReducesTo [0, 1] S_
  bcast_S_S8192 : S_.BroadcastsInDim S8192 (![] : Fin 0 → Fin S8192.rank)
  reducesTo_S8192_S_d0 : S8192.ReducesTo [0] S_

variable [Facts]

def fn_part1 {F : FTy → Type} [FloatOps F] (main_v12 : IVec S_ 1) (main_v15 : IVec S_ 1) : IVec S_ 1 :=
  let main_v16 : IVec S_ 1 := andi main_v12 main_v15
  main_v16

def fn {F : FTy → Type} [FloatOps F] (main_arg0 : FVec F S_ .f32) (main_arg1 : FVec F S8192x3 .f32) (main_arg2 : FVec F S8192 .f32) (main_arg3 : FVec F S_ .f32) : IVec S_ 1 :=
  let main_v0 : FVec F S_ .f32 := Host.absf main_arg0
  let main_cst : FVec F S_ .f32 := constant S_ .f32 0x7F800000#32
  let main_v1 : IVec S_ 1 := cmpf .olt main_v0 main_cst
  let main_c : IVec S_ 1 := constantI S_ 1 1#1
  let main_v2 : IVec S_ 1 := (fun x v => Host.reduce IntOp.andi x v reducesTo_S_S_d h_S_) main_v1 main_c
  let main_v3 : FVec F S8192x3 .f32 := Host.absf main_arg1
  let main_cst_0 : FVec F S_ .f32 := constant S_ .f32 0x7F800000#32
  let main_v4 : FVec F S8192x3 .f32 := broadcastInDim S8192x3 ![] bcast_S_S8192x3 main_cst_0
  let main_v5 : IVec S8192x3 1 := cmpf .olt main_v3 main_v4
  let main_c_1 : IVec S_ 1 := constantI S_ 1 1#1
  let main_v6 : IVec S_ 1 := (fun x v => Host.reduce IntOp.andi x v reducesTo_S8192x3_S_d0_1 h_S_) main_v5 main_c_1
  let main_v7 : IVec S_ 1 := andi main_v2 main_v6
  let main_v8 : FVec F S8192 .f32 := Host.absf main_arg2
  let main_cst_2 : FVec F S_ .f32 := constant S_ .f32 0x7F800000#32
  let main_v9 : FVec F S8192 .f32 := broadcastInDim S8192 ![] bcast_S_S8192 main_cst_2
  let main_v10 : IVec S8192 1 := cmpf .olt main_v8 main_v9
  let main_c_3 : IVec S_ 1 := constantI S_ 1 1#1
  let main_v11 : IVec S_ 1 := (fun x v => Host.reduce IntOp.andi x v reducesTo_S8192_S_d0 h_S_) main_v10 main_c_3
  let main_v12 : IVec S_ 1 := andi main_v7 main_v11
  let main_v13 : FVec F S_ .f32 := Host.absf main_arg3
  let main_cst_4 : FVec F S_ .f32 := constant S_ .f32 0x7F800000#32
  let main_v14 : IVec S_ 1 := cmpf .olt main_v13 main_cst_4
  let main_c_5 : IVec S_ 1 := constantI S_ 1 1#1
  let main_v15 : IVec S_ 1 := (fun x v => Host.reduce IntOp.andi x v reducesTo_S_S_d h_S_) main_v14 main_c_5
  fn_part1 (F := F) main_v12 main_v15
-- ==== Kernel.lean ====
abbrev S_ : Shape := ⟨0, ![]⟩
abbrev S8192x3 : Shape := ⟨2, ![8192, 3]⟩
abbrev S8192 : Shape := ⟨1, ![8192]⟩
abbrev S1x8192 : Shape := ⟨2, ![1, 8192]⟩
abbrev S3x8192 : Shape := ⟨2, ![3, 8192]⟩
abbrev S1024x3 : Shape := ⟨2, ![1024, 3]⟩
abbrev S3x1024 : Shape := ⟨2, ![3, 1024]⟩
abbrev S1x1024 : Shape := ⟨2, ![1, 1024]⟩
abbrev S1024x1 : Shape := ⟨2, ![1024, 1]⟩
abbrev S1024x1024 : Shape := ⟨2, ![1024, 1024]⟩
abbrev S1024 : Shape := ⟨1, ![1024]⟩

abbrev nBuf : Space → Nat
  | .hbm => 10
  | .vmem => 9
  | .smem => 0
  | _ => 0

abbrev bufTy : (tb : Table) → Fin (tcTables nBuf tb) → BufTy
  | .hbm, ⟨0, _⟩ => ⟨S_, .f32⟩
  | .hbm, ⟨1, _⟩ => ⟨S8192x3, .f32⟩
  | .hbm, ⟨2, _⟩ => ⟨S8192, .f32⟩
  | .hbm, ⟨3, _⟩ => ⟨S_, .f32⟩
  | .hbm, ⟨4, _⟩ => ⟨S8192, .f32⟩
  | .hbm, ⟨5, _⟩ => ⟨S8192, .f32⟩
  | .hbm, ⟨6, _⟩ => ⟨S1x8192, .f32⟩
  | .hbm, ⟨7, _⟩ => ⟨S3x8192, .f32⟩
  | .hbm, ⟨8, _⟩ => ⟨S3x8192, .f32⟩
  | .hbm, ⟨9, _⟩ => ⟨S8192x3, .f32⟩
  | .local _ .vmem, ⟨0, _⟩ => ⟨S1024x3, .f32⟩
  | .local _ .vmem, ⟨1, _⟩ => ⟨S1024x3, .f32⟩
  | .local _ .vmem, ⟨2, _⟩ => ⟨S3x1024, .f32⟩
  | .local _ .vmem, ⟨3, _⟩ => ⟨S3x1024, .f32⟩
  | .local _ .vmem, ⟨4, _⟩ => ⟨S1x1024, .f32⟩
  | .local _ .vmem, ⟨5, _⟩ => ⟨S1x1024, .f32⟩
  | .local _ .vmem, ⟨6, _⟩ => ⟨S3x1024, .f32⟩
  | .local _ .vmem, ⟨7, _⟩ => ⟨S3x1024, .f32⟩
  | .local _ .vmem, ⟨8, _⟩ => ⟨S3x1024, .f32⟩
  | _, _ => ⟨S_, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg1 : BitVec 32 := BitVec.ofNat 32 (i 1).val
  let c7_i32 : BitVec 32 := 7#32
  let v46 : BitVec 1 := Scalar.cmpi .eq arg1 c7_i32
  let v47 : BitVec 32 := Scalar.extui v46
  let c0_i32_12 : BitVec 32 := 0#32
  let v48 : BitVec 1 := Scalar.cmpi .ne v47 c0_i32_12
  v48

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1024x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S3x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S3x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  bcast_S_S8192 : S_.BroadcastsInDim S8192 (![] : Fin 0 → Fin S8192.rank)
  shapeCasts_S8192_S1x8192 : S8192.ShapeCasts S1x8192
  transposes_S8192x3_S3x8192_1_0 : S8192x3.Transposes [1, 0] S3x8192
  inb_S3x1024_S3x1024_0_0 : ∀ a, (![0, 0] : Fin 2 → Nat) a + S3x1024.size a ≤ S3x1024.size a
  h_S3x1024 : 0 < S3x1024.numel
  shapeCasts_S3x1024_S3x1024 : S3x1024.ShapeCasts S3x1024
  inb_S1024x3_S1024x3_0_0 : ∀ a, (![0, 0] : Fin 2 → Nat) a + S1024x3.size a ≤ S1024x3.size a
  h_S1024x3 : 0 < S1024x3.numel
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  slices_S1024x3_o0_0_S1024x1 : S1024x3.Slices ![0, 0] S1024x1
  slices_S3x1024_o0_0_S1x1024 : S3x1024.Slices ![0, 0] S1x1024
  broadcasts_S1024x1_S1024x1024 : S1024x1.Broadcasts S1024x1024
  broadcasts_S1x1024_S1024x1024 : S1x1024.Broadcasts S1024x1024
  slices_S1024x3_o0_1_S1024x1 : S1024x3.Slices ![0, 1] S1024x1
  slices_S3x1024_o1_0_S1x1024 : S3x1024.Slices ![1, 0] S1x1024
  slices_S1024x3_o0_2_S1024x1 : S1024x3.Slices ![0, 2] S1024x1
  slices_S3x1024_o2_0_S1x1024 : S3x1024.Slices ![2, 0] S1x1024
  reduces_S1024x1024_S1024 : S1024x1024.Reduces [0] S1024
  shapeCasts_S1024_S1x1024 : S1024.ShapeCasts S1x1024
  broadcasts_S1x1024_S3x1024 : S1x1024.Broadcasts S3x1024
  transposes_S3x8192_S8192x3_1_0 : S3x8192.Transposes [1, 0] S8192x3
  dot_S1024x3_S1024x1024_S3x1024_0_0_1_1_n_n_wf : DotDims.WF S1024x3 S1024x1024 S3x1024 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x3.size a ≤ S8192x3.size a
  hwx0_0 : ∀ i : grid0.Coords, EltTy.bits .f32 = 32 ∨ (Rect.block (s := S8192x3) S1024x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S3x1024.size a ≤ S3x8192.size a
  hwx0_1 : ∀ i : grid0.Coords, EltTy.bits .f32 = 32 ∨ (Rect.block (s := S3x8192) S3x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x8192.size a
  hwx0_2 : ∀ i : grid0.Coords, EltTy.bits .f32 = 32 ∨ (Rect.block (s := S1x8192) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S3x1024.size a ≤ S3x8192.size a
  hwx0_3 : ∀ i : grid0.Coords, EltTy.bits .f32 = 32 ∨ (Rect.block (s := S3x8192) S3x1024.size (cc0_transform_3 i) (hinb0_3 i)).WholeWords (EltTy.packing .f32)

variable [Facts₀]

def dot_S1024x3_S1024x1024_S3x1024_0_0_1_1_n_n : DotDims S1024x3 S1024x1024 S3x1024 where
  lhsContracting := [0]
  rhsContracting := [0]
  lhsNonContracting := [1]
  rhsNonContracting := [1]
  lhsBatch := []
  rhsBatch := []
  wf := dot_S1024x3_S1024x1024_S3x1024_0_0_1_1_n_n_wf

abbrev win0_0 : Pipeline.Window sig grid0 :=
  Pipeline.Window.ofSpec (Memref.whole main_arg1) S1024x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S3x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4) S3x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S_ : Shape := ⟨0, ![]⟩
abbrev S8192x3 : Shape := ⟨2, ![8192, 3]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S3x8192 : Shape := ⟨2, ![3, 8192]⟩

abbrev nBuf : Space → Nat
  | .hbm => 37
  | .vmem => 0
  | .smem => 0
  | _ => 0

abbrev bufTy : (tb : Table) → Fin (tcTables nBuf tb) → BufTy
  | .hbm, ⟨0, _⟩ => ⟨S_, .f32⟩
  | .hbm, ⟨1, _⟩ => ⟨S8192x3, .f32⟩
  | .hbm, ⟨2, _⟩ => ⟨S8192, .f32⟩
  | .hbm, ⟨3, _⟩ => ⟨S_, .f32⟩
  | .hbm, ⟨4, _⟩ => ⟨S8192x3, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S1x8192, .f32⟩
  | .hbm, ⟨9, _⟩ => ⟨S8192x8192, .f32⟩
  | .hbm, ⟨10, _⟩ => ⟨S8192x8192, .f32⟩
  | .hbm, ⟨11, _⟩ => ⟨S8192x8192, .f32⟩
  | .hbm, ⟨12, _⟩ => ⟨S3x8192, .f32⟩
  | .hbm, ⟨13, _⟩ => ⟨S8192x8192, .f32⟩
  | .hbm, ⟨14, _⟩ => ⟨S_, .f32⟩
  | .hbm, ⟨15, _⟩ => ⟨S8192x8192, .f32⟩
  | .hbm, ⟨16, _⟩ => ⟨S8192x8192, .f32⟩
  | .hbm, ⟨17, _⟩ => ⟨S8192x8192, .f32⟩
  | .hbm, ⟨18, _⟩ => ⟨S_, .f32⟩
  | .hbm, ⟨19, _⟩ => ⟨S8192x8192, .f32⟩
  | .hbm, ⟨20, _⟩ => ⟨S8192x8192, .f32⟩
  | .hbm, ⟨21, _⟩ => ⟨S_, .f32⟩
  | .hbm, ⟨22, _⟩ => ⟨S8192x8192, .f32⟩
  | .hbm, ⟨23, _⟩ => ⟨S8192x8192, .f32⟩
  | .hbm, ⟨24, _⟩ => ⟨S1x8192, .f32⟩
  | .hbm, ⟨25, _⟩ => ⟨S1x8192, .f32⟩
  | .hbm, ⟨26, _⟩ => ⟨S1x8192, .f32⟩
  | .hbm, ⟨27, _⟩ => ⟨S8192x8192, .f32⟩
  | .hbm, ⟨28, _⟩ => ⟨S8192x8192, .f32⟩
  | .hbm, ⟨29, _⟩ => ⟨S8192x8192, .f32⟩
  | .hbm, ⟨30, _⟩ => ⟨S8192x3, .f32⟩
  | .hbm, ⟨31, _⟩ => ⟨S_, .f32⟩
  | .hbm, ⟨32, _⟩ => ⟨S8192, .f32⟩
  | .hbm, ⟨33, _⟩ => ⟨S8192x1, .f32⟩
  | .hbm, ⟨34, _⟩ => ⟨S8192x3, .f32⟩
  | .hbm, ⟨35, _⟩ => ⟨S8192x3, .f32⟩
  | .hbm, ⟨36, _⟩ => ⟨S8192x3, .f32⟩
  | _, _ => ⟨S_, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_3 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩

abbrev nD : Nat := 1
abbrev τ : Topo := Topo.v7x

variable {F : FTy → Type} [FloatOps F]

class Facts₀ : Prop where
  reducesTo_S8192x3_S8192_d1 : S8192x3.ReducesTo [1] S8192
  h_S_ : 0 < S_.numel
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  transposes_S8192x3_S3x8192_1_0 : S8192x3.Transposes [1, 0] S3x8192
  bcast_S_S8192x8192 : S_.BroadcastsInDim S8192x8192 (![] : Fin 0 → Fin S8192x8192.rank)
  bcast_S_S1x8192 : S_.BroadcastsInDim S1x8192 (![] : Fin 0 → Fin S1x8192.rank)
  transposes_S8192x8192_S8192x8192_1_0 : S8192x8192.Transposes [1, 0] S8192x8192
  reducesTo_S8192x8192_S8192_d0 : S8192x8192.ReducesTo [0] S8192
  bcast_S8192x1_S8192x3_0_1 : S8192x1.BroadcastsInDim S8192x3 (![0, 1] : Fin 2 → Fin S8192x3.rank)
  dot_S8192x3_S3x8192_S8192x8192_1_0_0_1_n_n_wf : DotDims.WF S8192x3 S3x8192 S8192x8192 [1] [0] [0] [1] [] []
  dot_S8192x8192_S8192x3_S8192x3_1_0_0_1_n_n_wf : DotDims.WF S8192x8192 S8192x3 S8192x3 [1] [0] [0] [1] [] []

variable [Facts₀]

def dot_S8192x3_S3x8192_S8192x8192_1_0_0_1_n_n : DotDims S8192x3 S3x8192 S8192x8192 where
  lhsContracting := [1]
  rhsContracting := [0]
  lhsNonContracting := [0]
  rhsNonContracting := [1]
  lhsBatch := []
  rhsBatch := []
  wf := dot_S8192x3_S3x8192_S8192x8192_1_0_0_1_n_n_wf
def dot_S8192x8192_S8192x3_S8192x3_1_0_0_1_n_n : DotDims S8192x8192 S8192x3 S8192x3 where
  lhsContracting := [1]
  rhsContracting := [0]
  lhsNonContracting := [0]
  rhsNonContracting := [1]
  lhsBatch := []
  rhsBatch := []
  wf := dot_S8192x8192_S8192x3_S8192x3_1_0_0_1_n_n_wf

class Facts : Prop extends Facts₀ where

variable [Facts]
-- ==== Proof.Pieces.lean ====
/-
  What one grid point leaves in the accumulator and in the output block, as values.

  The body of the kernel at a grid point reads the block of positions of the partner bodies `x0` (1024 × 3), the
  transposed block of positions of the target bodies `x1` (3 × 1024) and the block of scaled masses `x2`
  (1 × 1024), and adds to the accumulator the contribution of these 1024 partners to the 3 × 1024 target entries.
  At the first partner block the accumulator is first reset to zero; at the last one it is also copied to the
  output block.  So, with `step x0 x1 x2 a` the accumulator `a` plus the contribution:
    first block:   accumulator = step x0 x1 x2 0
    middle blocks: accumulator = step x0 x1 x2 (accumulator before)
    last block:    accumulator = output block = step x0 x1 x2 (accumulator before).
-/
import proofs.«170057_j75685913690724_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Pieces

open Cert.KernelIdeal Cert.KernelIdeal.Gen

variable {F : FTy → Type} [FloatOps F]

theorem hz : (![0, 0] : Fin 2 → Nat) = fun _ => 0 := funext fun a => by fin_cases a <;> rfl

/-- The accumulator `a` plus the contribution of the partner block. -/
abbrev step (x0 : Vec F S1024x3 .f32) (x1 : Vec F S3x1024 .f32) (x2 : Vec F S1x1024 .f32) (a : Vec F S3x1024 .f32) :
    Vec F S3x1024 .f32 := k0_pay1 (k0_pay3 x0 x1 x2 a)

/-- First partner block: the accumulator is reset, then stepped. -/
theorem sout_A (c : Dev nD) (i : grid0.Coords) (arg2 : Memref sig .tc .vmem S1024x3 .f32) (harg2 : arg2.IsWhole) (arg3 : Memref sig .tc .vmem S3x1024 .f32) (harg3 : arg3.IsWhole) (arg4 : Memref sig .tc .vmem S1x1024 .f32) (harg4 : arg4.IsWhole) (arg5 : Memref sig .tc .vmem S3x1024 .f32) (harg5 : arg5.IsWhole) (arg6 : Memref sig .tc .vmem S3x1024 .f32) (harg6 : arg6.IsWhole) (hc0 : cond0_0 i) (hc1 : ¬cond0_1 i)
    (x0 : Vec F S1024x3 .f32) (x1 : Vec F S3x1024 .f32) (x2 : Vec F S1x1024 .f32) :
    sout0_A_0 c i arg2 harg2 arg3 harg3 arg4 harg4 arg5 harg5 arg6 harg6 hc0 hc1 x0 x1 x2 = step x0 x1 x2 k0_pay2 := by
  unfold sout0_A_0
  rw [View.read_writes_eq_canon _ _ _ (scover0_A_0 c i arg2 harg2 arg3 harg3 arg4 harg4 arg5 harg5 arg6 harg6 hc0 hc1 x0 x1 x2)]
  unfold kernelRun0_A
  dsimp only
  sl_unfold_words
  rw [View.canon_cons_unit_zero (S := S3x1024) hz]
  simp only [View.readAt_eq_ld, View.readCov_unit_zero (S := S3x1024) _ hz, harg2.read_unread, harg3.read_unread, harg4.read_unread, harg6.read_unread, View.ld_unit_zero (S := S1024x3) hz, View.ld_unit_zero (S := S3x1024) hz, View.ld_unit_zero (S := S1x1024) hz]

/-- A middle partner block: the accumulator is stepped. -/
theorem sout_B (c : Dev nD) (i : grid0.Coords) (arg2 : Memref sig .tc .vmem S1024x3 .f32) (harg2 : arg2.IsWhole) (arg3 : Memref sig .tc .vmem S3x1024 .f32) (harg3 : arg3.IsWhole) (arg4 : Memref sig .tc .vmem S1x1024 .f32) (harg4 : arg4.IsWhole) (arg5 : Memref sig .tc .vmem S3x1024 .f32) (harg5 : arg5.IsWhole) (arg6 : Memref sig .tc .vmem S3x1024 .f32) (harg6 : arg6.IsWhole) (hc0 : ¬cond0_0 i) (hc1 : ¬cond0_1 i)
    (x0 : Vec F S1024x3 .f32) (x1 : Vec F S3x1024 .f32) (x2 : Vec F S1x1024 .f32) (xs0 : Vec F S3x1024 .f32) :
    sout0_B_0 c i arg2 harg2 arg3 harg3 arg4 harg4 arg5 harg5 arg6 harg6 hc0 hc1 x0 x1 x2 xs0 = step x0 x1 x2 xs0 := by
  unfold sout0_B_0
  rw [View.read_writes_eq_canon _ _ _ (scover0_B_0 c i arg2 harg2 arg3 harg3 arg4 harg4 arg5 harg5 arg6 harg6 hc0 hc1 x0 x1 x2 xs0)]
  unfold kernelRun0_B
  dsimp only
  sl_unfold_words
  rw [View.canon_unit_zero hz]
  simp only [View.readAt_eq_ld, View.readCov_unit_zero (S := S3x1024) _ hz, harg2.read_unread, harg3.read_unread, harg4.read_unread, harg6.read_unread, View.ld_unit_zero (S := S1024x3) hz, View.ld_unit_zero (S := S3x1024) hz, View.ld_unit_zero (S := S1x1024) hz]

/-- The last partner block: the accumulator is stepped … -/
theorem sout_C (c : Dev nD) (i : grid0.Coords) (arg2 : Memref sig .tc .vmem S1024x3 .f32) (harg2 : arg2.IsWhole) (arg3 : Memref sig .tc .vmem S3x1024 .f32) (harg3 : arg3.IsWhole) (arg4 : Memref sig .tc .vmem S1x1024 .f32) (harg4 : arg4.IsWhole) (arg5 : Memref sig .tc .vmem S3x1024 .f32) (harg5 : arg5.IsWhole) (arg6 : Memref sig .tc .vmem S3x1024 .f32) (harg6 : arg6.IsWhole) (hc0 : ¬cond0_0 i) (hc1 : cond0_1 i)
    (x0 : Vec F S1024x3 .f32) (x1 : Vec F S3x1024 .f32) (x2 : Vec F S1x1024 .f32) (xs0 : Vec F S3x1024 .f32) :
    sout0_C_0 c i arg2 harg2 arg3 harg3 arg4 harg4 arg5 harg5 arg6 harg6 hc0 hc1 x0 x1 x2 xs0 = step x0 x1 x2 xs0 := by
  unfold sout0_C_0
  rw [View.read_writes_eq_canon _ _ _ (scover0_C_0 c i arg2 harg2 arg3 harg3 arg4 harg4 arg5 harg5 arg6 harg6 hc0 hc1 x0 x1 x2 xs0)]
  unfold kernelRun0_C
  dsimp only
  sl_unfold_words
  rw [View.canon_unit_zero hz]
  simp only [View.readAt_eq_ld, View.readCov_unit_zero (S := S3x1024) _ hz, harg2.read_unread, harg3.read_unread, harg4.read_unread, harg6.read_unread, View.ld_unit_zero (S := S1024x3) hz, View.ld_unit_zero (S := S3x1024) hz, View.ld_unit_zero (S := S1x1024) hz]

/-- … and copied to the output block. -/
theorem out_C (c : Dev nD) (i : grid0.Coords) (arg2 : Memref sig .tc .vmem S1024x3 .f32) (harg2 : arg2.IsWhole) (arg3 : Memref sig .tc .vmem S3x1024 .f32) (harg3 : arg3.IsWhole) (arg4 : Memref sig .tc .vmem S1x1024 .f32) (harg4 : arg4.IsWhole) (arg5 : Memref sig .tc .vmem S3x1024 .f32) (harg5 : arg5.IsWhole) (arg6 : Memref sig .tc .vmem S3x1024 .f32) (harg6 : arg6.IsWhole) (hc0 : ¬cond0_0 i) (hc1 : cond0_1 i)
    (x0 : Vec F S1024x3 .f32) (x1 : Vec F S3x1024 .f32) (x2 : Vec F S1x1024 .f32) (xs0 : Vec F S3x1024 .f32) :
    out0_C_3 c i arg2 harg2 arg3 harg3 arg4 harg4 arg5 harg5 arg6 harg6 hc0 hc1 x0 x1 x2 xs0 = step x0 x1 x2 xs0 := by
  unfold out0_C_3
  rw [View.read_writes_eq_canon _ _ _ (cover0_C_3 c i arg2 harg2 arg3 harg3 arg4 harg4 arg5 harg5 arg6 harg6 hc0 hc1 x0 x1 x2 xs0)]
  unfold kernelRun0_C
  dsimp only
  sl_unfold_words
  rw [View.canon_unit_zero hz]
  simp only [View.readAt_eq_ld, View.readCov_unit_zero (S := S3x1024) _ hz, harg2.read_unread, harg3.read_unread, harg4.read_unread, harg6.read_unread, View.ld_unit_zero (S := S1024x3) hz, View.ld_unit_zero (S := S3x1024) hz, View.ld_unit_zero (S := S1x1024) hz]

end Cert.KernelIdeal.Pieces

end
-- ==== Proof.Chain.lean ====
/-
  The accumulator after each grid point, as a recurrence over the points.

  Grid point t = 8·jt + it visits partner block `it` for target block `jt`.  After it the accumulator holds
    it = 0:      one step from the reset accumulator,
    0 < it:      one step from what point t − 1 left,
  of the three blocks the point reads; and at it = 7 the output block holds the same value.
-/
import proofs.«170057_j75685913690724_2_alg».proof.Proof.Pieces

noncomputable section

namespace Cert.KernelIdeal.Chain

open Idealize.ShloMosaic Idealize.ShloMosaic.TcCoe Idealize.SL.Sem Cert.KernelIdeal Cert.KernelIdeal.Gen Cert.KernelIdeal.Pieces

variable {F : FTy → Type} [FloatOps F]
variable (m : (ℓ : Loc nD τ sig) → Buf (Elt F) ℓ)

/-- The components of a pair known by an equation. -/
theorem fst_of_eq {α β : Type} {p : α × β} {a : α} {b : β} (h : p = (a, b)) : p.1 = a := by rw [h]
theorem snd_of_eq {α β : Type} {p : α × β} {a : α} {b : β} (h : p = (a, b)) : p.2 = b := by rw [h]

/-- First partner block of a target block. -/
theorem acc_A (c : Dev nD) (t : Fin cfg0.N) (h0 : t.val % 8 = 0) (h1 : ¬t.val % 8 = 7) :
    (outsAt0 m c t.val t.isLt).2 = step (iblk m c 0 t) (iblk m c 1 t) (iblk m c 2 t) k0_pay2 := by
  refine (snd_of_eq (outsAt0_A m c t h0 h1)).trans ?_
  exact sout_A (F := F) c (grid0.coords t) (ms0_0 t) (hs0_0 t) (ms0_1 t) (hs0_1 t) (ms0_2 t) (hs0_2 t) (ms0_3 t) (hs0_3 t) scM0_0
    (Memref.isWhole_whole _) ((hcond0_0 t).mpr h0) (fun h => h1 ((hcond0_1 t).mp h)) (iblk m c 0 t) (iblk m c 1 t) (iblk m c 2 t)

/-- A middle partner block. -/
theorem acc_B (c : Dev nD) (t : Fin cfg0.N) (h0 : ¬t.val % 8 = 0) (h1 : ¬t.val % 8 = 7) :
    (outsAt0 m c t.val t.isLt).2
      = step (iblk m c 0 t) (iblk m c 1 t) (iblk m c 2 t) (outsAt0 m c (t.val - 1) (Nat.lt_of_le_of_lt (Nat.sub_le _ _) t.isLt)).2 := by
  refine (snd_of_eq (outsAt0_B m c t h0 h1)).trans ?_
  exact sout_B (F := F) c (grid0.coords t) (ms0_0 t) (hs0_0 t) (ms0_1 t) (hs0_1 t) (ms0_2 t) (hs0_2 t) (ms0_3 t) (hs0_3 t) scM0_0
    (Memref.isWhole_whole _) (fun h => h0 ((hcond0_0 t).mp h)) (fun h => h1 ((hcond0_1 t).mp h)) (iblk m c 0 t) (iblk m c 1 t) (iblk m c 2 t)
    (outsAt0 m c (t.val - 1) (Nat.lt_of_le_of_lt (Nat.sub_le _ _) t.isLt)).2

/-- The last partner block: the accumulator … -/
theorem acc_C (c : Dev nD) (t : Fin cfg0.N) (h0 : ¬t.val % 8 = 0) (h1 : t.val % 8 = 7) :
    (outsAt0 m c t.val t.isLt).2
      = step (iblk m c 0 t) (iblk m c 1 t) (iblk m c 2 t) (outsAt0 m c (t.val - 1) (Nat.lt_of_le_of_lt (Nat.sub_le _ _) t.isLt)).2 := by
  refine (snd_of_eq (outsAt0_C m c t h0 h1)).trans ?_
  exact sout_C (F := F) c (grid0.coords t) (ms0_0 t) (hs0_0 t) (ms0_1 t) (hs0_1 t) (ms0_2 t) (hs0_2 t) (ms0_3 t) (hs0_3 t) scM0_0
    (Memref.isWhole_whole _) (fun h => h0 ((hcond0_0 t).mp h)) ((hcond0_1 t).mpr h1) (iblk m c 0 t) (iblk m c 1 t) (iblk m c 2 t)
    (outsAt0 m c (t.val - 1) (Nat.lt_of_le_of_lt (Nat.sub_le _ _) t.isLt)).2

/-- … and the output block. -/
theorem out_last (c : Dev nD) (t : Fin cfg0.N) (h0 : ¬t.val % 8 = 0) (h1 : t.val % 8 = 7) :
    (outsAt0 m c t.val t.isLt).1
      = step (iblk m c 0 t) (iblk m c 1 t) (iblk m c 2 t) (outsAt0 m c (t.val - 1) (Nat.lt_of_le_of_lt (Nat.sub_le _ _) t.isLt)).2 := by
  refine (fst_of_eq (outsAt0_C m c t h0 h1)).trans ?_
  exact out_C (F := F) c (grid0.coords t) (ms0_0 t) (hs0_0 t) (ms0_1 t) (hs0_1 t) (ms0_2 t) (hs0_2 t) (ms0_3 t) (hs0_3 t) scM0_0
    (Memref.isWhole_whole _) (fun h => h0 ((hcond0_0 t).mp h)) ((hcond0_1 t).mpr h1) (iblk m c 0 t) (iblk m c 1 t) (iblk m c 2 t)
    (outsAt0 m c (t.val - 1) (Nat.lt_of_le_of_lt (Nat.sub_le _ _) t.isLt)).2

end Cert.KernelIdeal.Chain

end
-- ==== Proof.LibDotAxis0.lean ====
/-
  A matrix product that contracts the FIRST axis of both operands, read at one entry.

  For `x : K × M` and `y : K × N` the product with dimension numbers "contract axis 0 of the left with axis 0 of the right, keep
  axis 1 of each" is the `M × N` array of inner products of COLUMNS: entry `(p, q)` is `∑ k, x[k, p] · y[k, q]` (the transpose of
  the left operand times the right). Over the extended reals, accumulated into the zero array, that is the whole statement
  (`matmul_axis0_apply`); the work is only to identify the product's own operand indices — computed from the dimension numbers —
  with the coordinate pairs `(k, p)` and `(k, q)`, and its one-axis contraction index with the coordinate `k`.
-/
import Idealize.ShloMosaic.PureOps.Ideal.Laws
import Idealize.ShloMosaic.Lib.ValueIdx

noncomputable section

open scoped BigOperators

namespace Cert.Lib.DotAxis0

open Idealize.ShloMosaic Idealize.ShloMosaic.ValueIdx

/-- The dimension numbers: `K×M` by `K×N`, each contracted on its first axis, the result `M×N`. -/
def dims (K M N : Nat) : DotDims ⟨2, ![K, M]⟩ ⟨2, ![K, N]⟩ ⟨2, ![M, N]⟩ where
  lhsContracting := [0]
  rhsContracting := [0]
  lhsNonContracting := [1]
  rhsNonContracting := [1]
  lhsBatch := []
  rhsBatch := []
  wf := ⟨rfl, by simp, rfl, by simp, by simp, by simp, by simpa [List.finRange] using List.Perm.swap 0 1 [],
    by simpa [List.finRange] using List.Perm.swap 0 1 [], rfl, Nat.two_pos, fun b => by fin_cases b <;> rfl⟩

variable {K M N : Nat}

/-- The left operand's kept axis 1 follows the output's axis 0, whatever the contraction index. -/
theorem lhs_axis1 (i : (⟨2, ![M, N]⟩ : Shape).Idx) (c : (dims K M N).contr.Idx) :
    ((dims K M N).lhsIdx i c 1).val = (i 0).val := by
  unfold DotDims.lhsIdx
  rw [dif_neg (show ¬(1 : Fin (⟨2, ![K, M]⟩ : Shape).rank) ∈ (dims K M N).lhsBatch from List.not_mem_nil),
    dif_pos (show (1 : Fin (⟨2, ![K, M]⟩ : Shape).rank) ∈ (dims K M N).lhsNonContracting from List.mem_cons_self)]
  rfl

/-- The right operand's kept axis 1 follows the output's axis 1. -/
theorem rhs_axis1 (i : (⟨2, ![M, N]⟩ : Shape).Idx) (c : (dims K M N).contr.Idx) :
    ((dims K M N).rhsIdx i c 1).val = (i 1).val := by
  unfold DotDims.rhsIdx
  rw [dif_neg (show ¬(1 : Fin (⟨2, ![K, N]⟩ : Shape).rank) ∈ (dims K M N).rhsBatch from List.not_mem_nil),
    dif_pos (show (1 : Fin (⟨2, ![K, N]⟩ : Shape).rank) ∈ (dims K M N).rhsNonContracting from List.mem_cons_self)]
  rfl

/-- Each operand's contracted axis 0 follows the contraction index's one coordinate. -/
theorem lhs_axis0 (i : (⟨2, ![M, N]⟩ : Shape).Idx) (c : (dims K M N).contr.Idx) :
    ((dims K M N).lhsIdx i c 0).val = (c ⟨0, Nat.zero_lt_one⟩).val :=
  (dims K M N).lhsIdx_val_of_single rfl i c
theorem rhs_axis0 (i : (⟨2, ![M, N]⟩ : Shape).Idx) (c : (dims K M N).contr.Idx) :
    ((dims K M N).rhsIdx i c 0).val = (c ⟨0, Nat.zero_lt_one⟩).val :=
  (dims K M N).rhsIdx_val_of_single rfl i c

/-- So at output entry `(p, q)` and contraction coordinate `k` the left operand is read at `(k, p)` … -/
theorem lhsIdx_axis0 (p : Fin M) (q : Fin N) (k : Fin K) :
    (dims K M N).lhsIdx (ix2 p q) ((contrEquiv1 (dims K M N) K rfl rfl).symm k) = ix2 k p :=
  funext fun a => Fin.ext (by
    match a with
    | ⟨0, _⟩ => exact (lhs_axis0 _ _).trans (contrEquiv1_symm_val (dims K M N) K rfl rfl k)
    | ⟨1, _⟩ => exact lhs_axis1 _ _)

/-- … and the right operand at `(k, q)`. -/
theorem rhsIdx_axis0 (p : Fin M) (q : Fin N) (k : Fin K) :
    (dims K M N).rhsIdx (ix2 p q) ((contrEquiv1 (dims K M N) K rfl rfl).symm k) = ix2 k q :=
  funext fun a => Fin.ext (by
    match a with
    | ⟨0, _⟩ => exact (rhs_axis0 _ _).trans (contrEquiv1_symm_val (dims K M N) K rfl rfl k)
    | ⟨1, _⟩ => exact rhs_axis1 _ _)

/-- THE PRODUCT OF COLUMNS AT AN ENTRY. Over the extended reals, a matrix product with these dimension numbers (any record `D`
    that spells them: `hD`), accumulated into the zero array, holds at `(p, q)` the inner product of column `p` of the left
    operand and column `q` of the right: `∑ k, x[k, p] · y[k, q]`. -/
theorem matmul_axis0_apply {φ₁ φ₂ : FTy} (D : DotDims ⟨2, ![K, M]⟩ ⟨2, ![K, N]⟩ ⟨2, ![M, N]⟩) (hD : D = dims K M N)
    (prec : Option ContractPrecision) (x : FVec Ideal ⟨2, ![K, M]⟩ φ₁) (y : FVec Ideal ⟨2, ![K, N]⟩ φ₂) (p : Fin M) (q : Fin N) :
    FloatOps.matmul D prec x y (constant ⟨2, ![M, N]⟩ .f32 0x00000000#32) (ix2 p q) = ∑ k : Fin K, x (ix2 k p) * y (ix2 k q) := by
  subst hD
  rw [Ideal.matmul_constant_zero_apply, ← Equiv.sum_comp (contrEquiv1 (dims K M N) K rfl rfl).symm]
  refine Finset.sum_congr rfl fun k _ => ?_
  rw [lhsIdx_axis0, rhsIdx_axis0]

end Cert.Lib.DotAxis0

end
-- ==== Proof.Spec.lean ====
/-
  The softened N-body acceleration, as functions of the positions `y i k` (body `i`, axis `k`) and the
  scaled masses `mg j` (= G · mass j), over the extended reals — in the two arrangements the two programs
  compute:

  * the tiled arrangement: the squared distance of bodies `i`, `j` is the sum over the three axes of the
    squared coordinate differences; the inverse cube of the softened distance is the cube of the reciprocal
    square root; the sum over the partners `i` is taken in eight consecutive blocks of 1024 bodies, each
    block contributing  Σ_i y i d · f i j  −  y j d · Σ_i f i j  to the entry (d, j);
  * the dense arrangement: the squared distance is |y i|² + |y j|² − 2 ⟨y i, y j⟩, the inverse cube is the
    power −3/2, and both sums over the partners run over all 8192 bodies at once.
-/
import Idealize.ShloMosaic.PureOps.Ideal
import Idealize.ShloMosaic.Lib.ValueIdx

noncomputable section

namespace Cert.NBody

open Idealize.ShloMosaic

/-- The softening ε (the f32 nearest 1e-4), the literals 2 and −3/2, and the float zero. -/
def eps : EReal := Ideal.ofBits .f32 0x38D1B717#32
def two : EReal := Ideal.ofBits .f32 0x40000000#32
def m15 : EReal := Ideal.ofBits .f32 0xBFC00000#32
def zero : EReal := Ideal.ofBits .f32 0x00000000#32

variable (y : Fin 8192 → Fin 3 → EReal) (mg : Fin 8192 → EReal)

/-! ## The tiled arrangement -/

/-- Squared distance as the sum of the squared coordinate differences, axis 0 first. -/
def kd2 (i j : Fin 8192) : EReal :=
  ((y i 0 - y j 0) * (y i 0 - y j 0) + (y i 1 - y j 1) * (y i 1 - y j 1)) + (y i 2 - y j 2) * (y i 2 - y j 2)

/-- The pair factor: scaled mass of `j` times the cube of the reciprocal root of the softened squared distance. -/
def kf (i j : Fin 8192) : EReal :=
  mg j * ((Ideal.rsqrt (kd2 y i j + eps) * Ideal.rsqrt (kd2 y i j + eps)) * Ideal.rsqrt (kd2 y i j + eps))

/-- Body number `i` of block `b` (blocks of 1024 consecutive bodies). -/
def row (b : Fin 8) (i : Fin 1024) : Fin 8192 := ⟨1024 * b.val + i.val, by have := b.isLt; have := i.isLt; omega⟩

/-- What block `b` of partners contributes to entry (d, j). -/
def kcontrib (b : Fin 8) (d : Fin 3) (j : Fin 8192) : EReal :=
  (∑ i : Fin 1024, y (row b i) d * kf y mg (row b i) j) - y j d * ∑ i : Fin 1024, kf y mg (row b i) j

/-- The tiled result at (d, j): the eight blocks' contributions added. -/
def kacc (d : Fin 3) (j : Fin 8192) : EReal := ∑ b : Fin 8, kcontrib y mg b d j

/-! ## The dense arrangement -/

/-- |y i|², summed from the float zero. -/
def rd2 (i : Fin 8192) : EReal := zero + ∑ k : Fin 3, y i k * y i k

/-- ⟨y i, y j⟩. -/
def rcross (i j : Fin 8192) : EReal := ∑ k : Fin 3, y i k * y j k

/-- The pair factor with the power −3/2. -/
def rf (i j : Fin 8192) : EReal :=
  mg j * Ideal.pow (((rd2 y i + rd2 y j) - two * rcross y i j) + eps) m15

/-- The dense result at (j, d). -/
def racc (j : Fin 8192) (d : Fin 3) : EReal :=
  (∑ i : Fin 8192, rf y mg i j * y i d) - y j d * (zero + ∑ i : Fin 8192, rf y mg i j)

end Cert.NBody

end
-- ==== Proof.Payload.lean ====
/-
  The contribution of one block of partners, entry by entry, over the extended reals.

  With `x0` the 1024 × 3 block of partner positions, `x1` the 3 × 1024 transposed block of target positions and `x2`
  the 1 × 1024 block of scaled masses, the pair factor of partner `i` and target `j` is
      f i j = x2[0, j] · r³,   r = 1 / √( Σ_k (x0[i, k] − x1[k, j])² + ε ),
  and one step of the accumulator `a` adds, at entry (d, j),
      Σ_i x0[i, d] · f i j  −  x1[d, j] · Σ_i f i j :
  the first sum is a matrix product contracting the partner axis of both operands, the second a sum along the partner
  axis, spread over the three rows.
-/
import proofs.«170057_j75685913690724_2_alg».proof.Proof.Pieces
import proofs.«170057_j75685913690724_2_alg».proof.Proof.LibDotAxis0
import proofs.«170057_j75685913690724_2_alg».proof.Proof.Spec
import Idealize.ShloMosaic.Lib.ValueLayout
import Idealize.ShloMosaic.Lib.ValueIdx
import Idealize.ShloMosaic.Lib.Pipeline.Value
import Idealize.ShloMosaic.PureOps.Ideal.Laws

noncomputable section

namespace Cert.KernelIdeal.Payload

open Idealize.ShloMosaic Idealize.ShloMosaic.ValueIdx Cert.KernelIdeal Cert.KernelIdeal.Gen

/-- A column [a, 1] spread over [a, b] reads, at (p, c), the column's entry of row p. -/
theorem bcastCol {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Column `k` of the partner block spread along the target axis: at (i, j) it is x0[i, k]. -/
theorem colAt (x0 : FVec Ideal S1024x3 .f32) (k : Fin 3) (o : ℕ) (ho : k.val = o) (h : S1024x3.Slices ![0, o] S1024x1)
    (hb : S1024x1.Broadcasts S1024x1024) (i j : Fin 1024) :
    broadcastTo S1024x1024 (extractStridedSlice S1024x1 ![0, o] x0 h) hb (ix2 i j) = x0 (ix2 i k) :=
  (bcastCol _ hb i j).trans (slice2_axis1_apply o x0 h i (0 : Fin 1) k (by rw [ho]; rfl))

/-- Row `k` of the target block spread along the partner axis: at (i, j) it is x1[k, j]. -/
theorem rowAt (x1 : FVec Ideal S3x1024 .f32) (k : Fin 3) (o : ℕ) (ho : k.val = o) (h : S3x1024.Slices ![o, 0] S1x1024)
    (hb : S1x1024.Broadcasts S1024x1024) (i j : Fin 1024) :
    broadcastTo S1024x1024 (extractStridedSlice S1x1024 ![o, 0] x1 h) hb (ix2 i j) = x1 (ix2 k j) :=
  (broadcastTo_1b_ab_apply _ hb i j).trans (slice2_axis0_apply o x1 h (0 : Fin 1) j k (by rw [ho]; rfl))

/-- The pair factor of partner `i` and target `j` of the blocks. -/
def fblk (x0 : FVec Ideal S1024x3 .f32) (x1 : FVec Ideal S3x1024 .f32) (x2 : FVec Ideal S1x1024 .f32) (i j : Fin 1024) : EReal :=
  x2 (ix2 (0 : Fin 1) j) *
    ((Ideal.rsqrt ((((x0 (ix2 i 0) - x1 (ix2 0 j)) * (x0 (ix2 i 0) - x1 (ix2 0 j)) + (x0 (ix2 i 1) - x1 (ix2 1 j)) * (x0 (ix2 i 1) - x1 (ix2 1 j))) + (x0 (ix2 i 2) - x1 (ix2 2 j)) * (x0 (ix2 i 2) - x1 (ix2 2 j))) + Cert.NBody.eps)
      * Ideal.rsqrt ((((x0 (ix2 i 0) - x1 (ix2 0 j)) * (x0 (ix2 i 0) - x1 (ix2 0 j)) + (x0 (ix2 i 1) - x1 (ix2 1 j)) * (x0 (ix2 i 1) - x1 (ix2 1 j))) + (x0 (ix2 i 2) - x1 (ix2 2 j)) * (x0 (ix2 i 2) - x1 (ix2 2 j))) + Cert.NBody.eps))
      * Ideal.rsqrt ((((x0 (ix2 i 0) - x1 (ix2 0 j)) * (x0 (ix2 i 0) - x1 (ix2 0 j)) + (x0 (ix2 i 1) - x1 (ix2 1 j)) * (x0 (ix2 i 1) - x1 (ix2 1 j))) + (x0 (ix2 i 2) - x1 (ix2 2 j)) * (x0 (ix2 i 2) - x1 (ix2 2 j))) + Cert.NBody.eps))

/-- The 1024 × 1024 array of pair factors, as the body builds it from the three blocks. -/
def pairF (x0 : FVec Ideal S1024x3 .f32) (x1 : FVec Ideal S3x1024 .f32) (x2 : FVec Ideal S1x1024 .f32) : FVec Ideal S1024x1024 .f32 :=
  have v5 : FVec Ideal S3x1024 .f32 := shapeCast S3x1024 x1 Facts₀.shapeCasts_S3x1024_S3x1024
  have v7 : FVec Ideal S1x1024 .f32 := shapeCast S1x1024 x2 Facts₀.shapeCasts_S1x1024_S1x1024
  have v8 : FVec Ideal S1024x1 .f32 := extractStridedSlice S1024x1 ![0, 0] x0 Facts₀.slices_S1024x3_o0_0_S1024x1
  have v9 : FVec Ideal S1x1024 .f32 := extractStridedSlice S1x1024 ![0, 0] v5 Facts₀.slices_S3x1024_o0_0_S1x1024
  have v10 : FVec Ideal S1024x1024 .f32 := broadcastTo S1024x1024 v8 Facts₀.broadcasts_S1024x1_S1024x1024
  have v11 : FVec Ideal S1024x1024 .f32 := broadcastTo S1024x1024 v9 Facts₀.broadcasts_S1x1024_S1024x1024
  have v12 : FVec Ideal S1024x1024 .f32 := subf v10 v11
  have v13 : FVec Ideal S1024x1024 .f32 := mulf v12 v12
  have v14 : FVec Ideal S1024x1 .f32 := extractStridedSlice S1024x1 ![0, 1] x0 Facts₀.slices_S1024x3_o0_1_S1024x1
  have v15 : FVec Ideal S1x1024 .f32 := extractStridedSlice S1x1024 ![1, 0] v5 Facts₀.slices_S3x1024_o1_0_S1x1024
  have v16 : FVec Ideal S1024x1024 .f32 := broadcastTo S1024x1024 v14 Facts₀.broadcasts_S1024x1_S1024x1024
  have v17 : FVec Ideal S1024x1024 .f32 := broadcastTo S1024x1024 v15 Facts₀.broadcasts_S1x1024_S1024x1024
  have v18 : FVec Ideal S1024x1024 .f32 := subf v16 v17
  have v19 : FVec Ideal S1024x1024 .f32 := mulf v18 v18
  have v20 : FVec Ideal S1024x1024 .f32 := addf v13 v19
  have v21 : FVec Ideal S1024x1 .f32 := extractStridedSlice S1024x1 ![0, 2] x0 Facts₀.slices_S1024x3_o0_2_S1024x1
  have v22 : FVec Ideal S1x1024 .f32 := extractStridedSlice S1x1024 ![2, 0] v5 Facts₀.slices_S3x1024_o2_0_S1x1024
  have v23 : FVec Ideal S1024x1024 .f32 := broadcastTo S1024x1024 v21 Facts₀.broadcasts_S1024x1_S1024x1024
  have v24 : FVec Ideal S1024x1024 .f32 := broadcastTo S1024x1024 v22 Facts₀.broadcasts_S1x1024_S1024x1024
  have v25 : FVec Ideal S1024x1024 .f32 := subf v23 v24
  have v26 : FVec Ideal S1024x1024 .f32 := mulf v25 v25
  have v27 : FVec Ideal S1024x1024 .f32 := addf v20 v26
  have cst : Ideal .f32 := Scalar.ofBits .f32 0x38D1B717#32
  have v28 : FVec Ideal S1024x1024 .f32 := broadcast S1024x1024 cst
  have v29 : FVec Ideal S1024x1024 .f32 := addf v27 v28
  have v30 : FVec Ideal S1024x1024 .f32 := rsqrt v29
  have v31 : FVec Ideal S1024x1024 .f32 := mulf v30 v30
  have v32 : FVec Ideal S1024x1024 .f32 := mulf v31 v30
  have v33 : FVec Ideal S1024x1024 .f32 := broadcastTo S1024x1024 v7 Facts₀.broadcasts_S1x1024_S1024x1024
  mulf v33 v32

/-- One step of the accumulator is the accumulator plus (the product of the partner block, contracted along the partner
    axis, with the pair factors) minus (the target block times the pair factors summed along the partner axis). -/
theorem pay3_eq (x0 : FVec Ideal S1024x3 .f32) (x1 : FVec Ideal S3x1024 .f32) (x2 : FVec Ideal S1x1024 .f32) (a : FVec Ideal S3x1024 .f32) :
    k0_pay3 (F := Ideal) x0 x1 x2 a
      = addf a (subf (matmul dot_S1024x3_S1024x1024_S3x1024_0_0_1_1_n_n (some .fp32) x0 (pairF x0 x1 x2) (constant S3x1024 .f32 0x00000000#32))
          (mulf (shapeCast S3x1024 x1 Facts₀.shapeCasts_S3x1024_S3x1024)
            (broadcastTo S3x1024 (shapeCast S1x1024 (multiReduction .add [0] S1024 (pairF x0 x1 x2) 0x00000000#32 Facts₀.reduces_S1024x1024_S1024 (.inl rfl) rfl) Facts₀.shapeCasts_S1024_S1x1024) Facts₀.broadcasts_S1x1024_S3x1024))) := rfl

theorem rsqrt_at {s : Shape} (v : FVec Ideal s .f32) (i : s.Idx) : rsqrt v i = Ideal.rsqrt (v i) := rfl

/-- The array of pair factors at (i, j). -/
theorem pair_apply (x0 : FVec Ideal S1024x3 .f32) (x1 : FVec Ideal S3x1024 .f32) (x2 : FVec Ideal S1x1024 .f32) (i j : Fin 1024) :
    pairF x0 x1 x2 (ix2 i j) = fblk x0 x1 x2 i j := by
  unfold pairF fblk
  simp only [shapeCast_self, mulf_apply, addf_apply, subf_apply, rsqrt_at, broadcast_apply,
    colAt x0 0 0 rfl, colAt x0 1 1 rfl, colAt x0 2 2 rfl, rowAt x1 0 0 rfl, rowAt x1 1 1 rfl, rowAt x1 2 2 rfl,
    broadcastTo_1b_ab_apply]
  rfl

/-- The indices a sum along the partner axis runs over, at target `j`: the pairs (i, j). -/
theorem lift_col (i j : Fin 1024) : Facts₀.reduces_S1024x1024_S1024.lift (ix1 j) i = ix2 i j :=
  funext fun a => Fin.ext (by match a with | ⟨0, _⟩ => rfl | ⟨1, _⟩ => rfl)

/-- ONE STEP AT AN ENTRY: the accumulator's entry (d, j) plus  Σ_i x0[i, d] · f i j  −  x1[d, j] · Σ_i f i j. -/
theorem step_apply (x0 : FVec Ideal S1024x3 .f32) (x1 : FVec Ideal S3x1024 .f32) (x2 : FVec Ideal S1x1024 .f32) (a : FVec Ideal S3x1024 .f32)
    (d : Fin 3) (j : Fin 1024) :
    Pieces.step (F := Ideal) x0 x1 x2 a (ix2 d j)
      = a (ix2 d j) + ((∑ i : Fin 1024, x0 (ix2 i d) * fblk x0 x1 x2 i j) - x1 (ix2 d j) * ∑ i : Fin 1024, fblk x0 x1 x2 i j) := by
  unfold Pieces.step k0_pay1
  rw [shapeCast_self, pay3_eq]
  refine congrArg₂ (· + ·) rfl (congrArg₂ (· - ·) ?_ (congrArg₂ (· * ·) ?_ ?_))
  · refine (Cert.Lib.DotAxis0.matmul_axis0_apply _ rfl _ x0 _ d j).trans ?_
    exact Finset.sum_congr rfl fun i _ => congrArg₂ (· * ·) rfl (pair_apply x0 x1 x2 i j)
  · exact congrFun (shapeCast_self x1 _) (ix2 d j)
  · refine (broadcastTo_1b_ab_apply _ _ d j).trans ?_
    refine (shapeCast_a_1a_apply _ _ 0 j).trans ?_
    refine (Ideal.multiReduction_add_single _ 0x00000000#32 Facts₀.reduces_S1024x1024_S1024 (.inl rfl) rfl (ix1 j)).trans ?_
    exact Finset.sum_congr rfl fun i _ => (congrArg _ (lift_col i j)).trans (pair_apply x0 x1 x2 i j)

/-- When the three blocks hold rows 1024·bi … of the positions `y`, columns 1024·bj … of their transpose and of the scaled
    masses `mg`, the pair factor of the blocks is the pair factor of the bodies … -/
theorem fblk_of_blocks (x0 : FVec Ideal S1024x3 .f32) (x1 : FVec Ideal S3x1024 .f32) (x2 : FVec Ideal S1x1024 .f32)
    (y : Fin 8192 → Fin 3 → EReal) (mg : Fin 8192 → EReal) (bi bj : Fin 8)
    (h0 : ∀ (i : Fin 1024) (k : Fin 3), x0 (ix2 i k) = y (Cert.NBody.row bi i) k)
    (h1 : ∀ (k : Fin 3) (j : Fin 1024), x1 (ix2 k j) = y (Cert.NBody.row bj j) k)
    (h2 : ∀ j : Fin 1024, x2 (ix2 (0 : Fin 1) j) = mg (Cert.NBody.row bj j)) (i j : Fin 1024) :
    fblk x0 x1 x2 i j = Cert.NBody.kf y mg (Cert.NBody.row bi i) (Cert.NBody.row bj j) := by
  unfold fblk Cert.NBody.kf Cert.NBody.kd2
  rw [h0 i 0, h0 i 1, h0 i 2, h1 0 j, h1 1 j, h1 2 j, h2 j]

/-- … and what one step adds at entry (d, j) is partner block `bi`'s contribution to entry (d, 1024·bj + j). -/
theorem term_of_blocks (x0 : FVec Ideal S1024x3 .f32) (x1 : FVec Ideal S3x1024 .f32) (x2 : FVec Ideal S1x1024 .f32)
    (y : Fin 8192 → Fin 3 → EReal) (mg : Fin 8192 → EReal) (bi bj : Fin 8)
    (h0 : ∀ (i : Fin 1024) (k : Fin 3), x0 (ix2 i k) = y (Cert.NBody.row bi i) k)
    (h1 : ∀ (k : Fin 3) (j : Fin 1024), x1 (ix2 k j) = y (Cert.NBody.row bj j) k)
    (h2 : ∀ j : Fin 1024, x2 (ix2 (0 : Fin 1) j) = mg (Cert.NBody.row bj j)) (d : Fin 3) (j : Fin 1024) :
    (∑ i : Fin 1024, x0 (ix2 i d) * fblk x0 x1 x2 i j) - x1 (ix2 d j) * ∑ i : Fin 1024, fblk x0 x1 x2 i j
      = Cert.NBody.kcontrib y mg bi d (Cert.NBody.row bj j) := by
  unfold Cert.NBody.kcontrib
  rw [h1 d j]
  refine congrArg₂ (· - ·) (Finset.sum_congr rfl fun i _ => ?_)
    (congrArg₂ (· * ·) rfl (Finset.sum_congr rfl fun i _ => fblk_of_blocks x0 x1 x2 y mg bi bj h0 h1 h2 i j))
  rw [h0 i d, fblk_of_blocks x0 x1 x2 y mg bi bj h0 h1 h2 i j]

/-- The reset accumulator is zero at every entry. -/
theorem reset_apply (y : S3x1024.Idx) : (k0_pay2 (F := Ideal)) y = 0 := by
  unfold k0_pay2
  rw [shapeCast_self]
  exact Ideal.ofBits_zero_f32

end Cert.KernelIdeal.Payload

end
-- ==== Proof.Blocks.lean ====
/-
  The blocks the tiled program reads, entry by entry.  Grid point t has coordinates (t / 8, t % 8): the first
  selects the block of 1024 target bodies, the second the block of 1024 partner bodies.  The positions block
  read at (i, k) is coordinate k of partner body 1024 · (t % 8) + i; the transposed positions block read at
  (k, j) is coordinate k of target body 1024 · (t / 8) + j; the scaled-mass block read at (0, j) is G times
  the mass of that target body.
-/
import proofs.«170057_j75685913690724_2_alg».proof.Proof.Gen.KernelIdeal.Frame
import proofs.«170057_j75685913690724_2_alg».proof.Proof.Spec
import Idealize.ShloMosaic.Lib.Pipeline.Value
import Idealize.ShloMosaic.Lib.ValueIdx
import Idealize.ShloMosaic.Lib.ValueLayout
import Idealize.ShloMosaic.Lib.StableHlo.Run

noncomputable section

namespace Cert.KernelIdeal.Blocks

open Cert.KernelIdeal Cert.KernelIdeal.Gen Idealize.ShloMosaic Idealize.ShloMosaic.ValueIdx
open Idealize.ShloMosaic.TcCoe Idealize.SL.Sem

variable (m : (ℓ : Loc nD τ sig) → Buf (Elt Ideal) ℓ)

/-- The positions: body a, axis k. -/
def Y (c : Dev nD) : Fin 8192 → Fin 3 → EReal :=
  fun a k => (m ((c : Thread nD τ).loc main_arg1) : S8192x3.Idx → EReal) (ix2 a k)

/-- The scaled masses G · mass j. -/
def MG (c : Dev nD) : Fin 8192 → EReal :=
  fun j => @HMul.hMul EReal EReal EReal instHMul (m ((c : Thread nD τ).loc main_arg3) ix0)
    (m ((c : Thread nD τ).loc main_arg2) (ix1 j))

/-- The target block of grid point t. -/
def jt (t : Fin cfg0.N) : Fin 8 := ⟨t.val / 8, by have := t.isLt; have h : cfg0.N = 64 := N_0; omega⟩

/-- The partner block of grid point t. -/
def it (t : Fin cfg0.N) : Fin 8 := ⟨t.val % 8, Nat.mod_lt _ (by decide)⟩

/-- The block indices of the four windows at every grid point. -/
theorem idx_facts : ∀ t : Fin cfg0.N,
    win0_0.index t (0 : Fin 2) = t.val % 8 ∧ win0_0.index t (1 : Fin 2) = 0
    ∧ win0_1.index t (0 : Fin 2) = 0 ∧ win0_1.index t (1 : Fin 2) = t.val / 8
    ∧ win0_2.index t (0 : Fin 2) = 0 ∧ win0_2.index t (1 : Fin 2) = t.val / 8
    ∧ win0_3.index t (0 : Fin 2) = 0 ∧ win0_3.index t (1 : Fin 2) = t.val / 8 :=
  (by decide +kernel : ∀ t : Fin grid0.N, _)

/-- The positions block at (i, k): coordinate k of partner body 1024 · (t % 8) + i. -/
theorem iblk0_at (c : Dev nD) (t : Fin cfg0.N) (i : Fin 1024) (k : Fin 3) :
    (iblk m c 0 t : Vec Ideal S1024x3 .f32) (ix2 i k) = Y m c (Cert.NBody.row (it t) i) k := by
  unfold iblk
  rw [View.read_apply]
  show V m c main_arg1 _ = _
  rw [V_main_arg1]
  unfold Y
  congr 1
  funext a
  apply Fin.ext
  match a with
  | ⟨0, _⟩ =>
    show win0_0.index t 0 * 1024 + 1 * i.val = 1024 * (t.val % 8) + i.val
    rw [(idx_facts t).1]; omega
  | ⟨1, _⟩ =>
    show win0_0.index t 1 * 3 + 1 * k.val = k.val
    rw [(idx_facts t).2.1]; omega

/-- The transposed positions as the region finds them. -/
theorem V_main_v3 (c : Dev nD) :
    (V m c main_v3 : S3x8192.Idx → EReal)
      = transpose S3x8192 [1, 0] (m ((c : Thread nD τ).loc main_arg1)) Gen.transposes_S8192x3_S3x8192_1_0 := by
  show StableHlo.after hostOps0 (fun b => m (c, b)) (Proc.devRef .tc main_v3) = _
  after_results

/-- The scaled masses as a row, as the region finds them. -/
theorem V_main_v2 (c : Dev nD) :
    (V m c main_v2 : S1x8192.Idx → EReal)
      = shapeCast S1x8192 (mulf (F := Ideal) (s := S8192) (φ := .f32)
          (broadcastInDim S8192 ![] Gen.bcast_S_S8192 (m ((c : Thread nD τ).loc main_arg3)))
          (m ((c : Thread nD τ).loc main_arg2))) Gen.shapeCasts_S8192_S1x8192 := by
  show StableHlo.after hostOps0 (fun b => m (c, b)) (Proc.devRef .tc main_v2) = _
  after_results
  rfl

/-- The transposed positions at (k, a): coordinate k of body a. -/
theorem v3_at (c : Dev nD) (k : Fin 3) (a : Fin 8192) :
    (V m c main_v3 : S3x8192.Idx → EReal) (ix2 k a) = Y m c a k := by
  rw [V_main_v3, transpose_ix2_apply]
  rfl

/-- The scaled-mass row at (0, a). -/
theorem v2_at (c : Dev nD) (u : Fin 1) (a : Fin 8192) :
    (V m c main_v2 : S1x8192.Idx → EReal) (ix2 u a) = MG m c a := by
  rw [V_main_v2, shapeCast_a_1a_apply, mulf_apply,
    broadcastInDim_apply _ Gen.bcast_S_S8192 _ (ix1 a) ix0 (fun d => d.elim0)]
  rfl

/-- The transposed positions block at (k, j): coordinate k of target body 1024 · (t / 8) + j. -/
theorem iblk1_at (c : Dev nD) (t : Fin cfg0.N) (k : Fin 3) (j : Fin 1024) :
    (iblk m c 1 t : Vec Ideal S3x1024 .f32) (ix2 k j) = Y m c (Cert.NBody.row (jt t) j) k := by
  unfold iblk
  rw [View.read_apply]
  show (V m c main_v3 : S3x8192.Idx → EReal) _ = _
  refine Eq.trans (congrArg (V m c main_v3 : S3x8192.Idx → EReal) ?_) (v3_at m c k (Cert.NBody.row (jt t) j))
  funext a
  apply Fin.ext
  match a with
  | ⟨0, _⟩ =>
    show win0_1.index t 0 * 3 + 1 * k.val = k.val
    rw [(idx_facts t).2.2.1]; omega
  | ⟨1, _⟩ =>
    show win0_1.index t 1 * 1024 + 1 * j.val = 1024 * (t.val / 8) + j.val
    rw [(idx_facts t).2.2.2.1]; omega

/-- The scaled-mass block at (0, j): G times the mass of target body 1024 · (t / 8) + j. -/
theorem iblk2_at (c : Dev nD) (t : Fin cfg0.N) (j : Fin 1024) :
    (iblk m c 2 t : Vec Ideal S1x1024 .f32) (ix2 (0 : Fin 1) j) = MG m c (Cert.NBody.row (jt t) j) := by
  unfold iblk
  rw [View.read_apply]
  show (V m c main_v2 : S1x8192.Idx → EReal) _ = _
  refine Eq.trans (congrArg (V m c main_v2 : S1x8192.Idx → EReal) ?_) (v2_at m c 0 (Cert.NBody.row (jt t) j))
  funext a
  apply Fin.ext
  match a with
  | ⟨0, _⟩ =>
    show win0_2.index t 0 * 1 + 1 * 0 = 0
    rw [(idx_facts t).2.2.2.2.1]
  | ⟨1, _⟩ =>
    show win0_2.index t 1 * 1024 + 1 * j.val = 1024 * (t.val / 8) + j.val
    rw [(idx_facts t).2.2.2.2.2.1]; omega

end Cert.KernelIdeal.Blocks

end
-- ==== Proof.Invariant.lean ====
/-
  The accumulator after each grid point, in closed form, over the extended reals.

  At grid point t = 8·jt + it the three blocks the body reads are rows 1024·it … of the positions, columns
  1024·jt … of the transposed positions and of the scaled masses; so one step adds, at entry (d, j), exactly the
  contribution of partner block `it` to entry (d, 1024·jt + j) of the result.  By induction on the point the
  accumulator after point t holds the contributions of the partner blocks 0 … it added up, and after the last
  partner block (it = 7) the output block holds all eight: the tiled result.
-/
import proofs.«170057_j75685913690724_2_alg».proof.Proof.Chain
import proofs.«170057_j75685913690724_2_alg».proof.Proof.Payload
import proofs.«170057_j75685913690724_2_alg».proof.Proof.Blocks

noncomputable section

namespace Cert.KernelIdeal.Invariant

open Idealize.ShloMosaic Idealize.ShloMosaic.TcCoe Idealize.ShloMosaic.ValueIdx Idealize.SL.Sem
open Cert.KernelIdeal Cert.KernelIdeal.Gen Cert.KernelIdeal.Pieces Cert.KernelIdeal.Payload Cert.KernelIdeal.Blocks
open Cert.NBody (row kf kd2 kcontrib kacc)

variable (m : (ℓ : Loc nD τ sig) → Buf (Elt Ideal) ℓ)

/-- Partner block `b`'s contribution to entry (d, 1024·q + j), zero past the eighth block. -/
def cf (c : Dev nD) (q : ℕ) (d : Fin 3) (j : Fin 1024) (b : ℕ) : EReal :=
  if hb : b < 8 ∧ q < 8 then kcontrib (Y m c) (MG m c) ⟨b, hb.1⟩ d (row ⟨q, hb.2⟩ j) else 0

theorem cf_at (c : Dev nD) (t : Fin cfg0.N) (d : Fin 3) (j : Fin 1024) :
    cf m c (t.val / 8) d j (t.val % 8) = kcontrib (Y m c) (MG m c) (it t) d (row (jt t) j) := by
  have hN : t.val < 64 := lt_of_lt_of_eq t.isLt (show cfg0.N = 64 from N_0)
  unfold cf
  rw [dif_pos ⟨by omega, by omega⟩]
  rfl

/-- One step at point `t` from an accumulator `a`, at entry (d, j). -/
theorem step_at (c : Dev nD) (t : Fin cfg0.N) (a : Vec Ideal S3x1024 .f32) (d : Fin 3) (j : Fin 1024) :
    step (iblk m c 0 t) (iblk m c 1 t) (iblk m c 2 t) a (ix2 d j) = a (ix2 d j) + cf m c (t.val / 8) d j (t.val % 8) := by
  refine (step_apply (iblk m c 0 t) (iblk m c 1 t) (iblk m c 2 t) a d j).trans ?_
  exact congrArg (a (ix2 d j) + ·) ((term_of_blocks (iblk m c 0 t) (iblk m c 1 t) (iblk m c 2 t) (Y m c) (MG m c) (it t) (jt t)
    (iblk0_at m c t) (iblk1_at m c t) (iblk2_at m c t) d j).trans (cf_at m c t d j).symm)

/-- THE ACCUMULATOR IN CLOSED FORM: after point n = 8·q + r it holds, at (d, j), the contributions of the partner blocks
    0 … r to entry (d, 1024·q + j). -/
theorem acc_eq (c : Dev nD) : ∀ (n : ℕ) (h : n < cfg0.N) (d : Fin 3) (j : Fin 1024),
    ((outsAt0 m c n h).2 : Vec Ideal S3x1024 .f32) (ix2 d j) = ∑ b ∈ Finset.range (n % 8 + 1), cf m c (n / 8) d j b
  | 0, h, d, j => by
    rw [Chain.acc_A m c ⟨0, h⟩ rfl (show ¬(0 % 8 = 7) by decide), step_at m c ⟨0, h⟩ _ d j, reset_apply, zero_add]
    exact (Finset.sum_range_one _).symm
  | n + 1, h, d, j => by
    have hN : n + 1 < 64 := lt_of_lt_of_eq h (show cfg0.N = 64 from N_0)
    by_cases h0 : (n + 1) % 8 = 0
    · have h1 : ¬(n + 1) % 8 = 7 := by omega
      rw [Chain.acc_A m c ⟨n + 1, h⟩ h0 h1, step_at m c ⟨n + 1, h⟩ _ d j, reset_apply, zero_add]
      show cf m c ((n + 1) / 8) d j ((n + 1) % 8) = _
      rw [h0]
      exact (Finset.sum_range_one _).symm
    · have hq : (n + 1) / 8 = n / 8 := by omega
      have hr : (n + 1) % 8 = n % 8 + 1 := by omega
      have key : step (iblk m c 0 ⟨n + 1, h⟩) (iblk m c 1 ⟨n + 1, h⟩) (iblk m c 2 ⟨n + 1, h⟩) (outsAt0 m c n (Nat.lt_of_succ_lt h)).2 (ix2 d j)
          = ∑ b ∈ Finset.range ((n + 1) % 8 + 1), cf m c ((n + 1) / 8) d j b := by
        rw [step_at m c ⟨n + 1, h⟩ _ d j, acc_eq c n (Nat.lt_of_succ_lt h) d j]
        show _ + cf m c ((n + 1) / 8) d j ((n + 1) % 8) = _
        rw [hq, hr, Finset.sum_range_succ _ (n % 8 + 1)]
      by_cases h1 : (n + 1) % 8 = 7
      · rw [Chain.acc_C m c ⟨n + 1, h⟩ h0 h1]; exact key
      · rw [Chain.acc_B m c ⟨n + 1, h⟩ h0 h1]; exact key

/-- THE OUTPUT BLOCK: after the last partner block of target block jt it holds, at (d, j), the tiled result at
    (d, 1024·jt + j). -/
theorem out_eq (c : Dev nD) (t : Fin cfg0.N) (h7 : t.val % 8 = 7) (d : Fin 3) (j : Fin 1024) :
    ((outsAt0 m c t.val t.isLt).1 : Vec Ideal S3x1024 .f32) (ix2 d j) = kacc (Y m c) (MG m c) d (row (jt t) j) := by
  have hN : t.val < 64 := lt_of_lt_of_eq t.isLt (show cfg0.N = 64 from N_0)
  obtain ⟨n, hn⟩ : ∃ n, t.val = n + 1 := ⟨t.val - 1, by omega⟩
  have h0 : ¬t.val % 8 = 0 := by omega
  rw [Chain.out_last m c t h0 h7, step_at m c t _ d j]
  have hlt : t.val - 1 < cfg0.N := Nat.lt_of_le_of_lt (Nat.sub_le _ _) t.isLt
  rw [acc_eq m c (t.val - 1) hlt d j]
  have hq : (t.val - 1) / 8 = t.val / 8 := by omega
  have hr : (t.val - 1) % 8 + 1 = 7 := by omega
  rw [hq, hr, h7, ← Finset.sum_range_succ _ 7]
  unfold kacc
  rw [Finset.sum_range]
  refine Finset.sum_congr rfl fun b _ => ?_
  unfold cf
  rw [dif_pos ⟨b.isLt, by omega⟩]
  rfl

end Cert.KernelIdeal.Invariant

end
-- ==== Proof.Final.lean ====
/-
  From the blocks to the array.  The points with t % 8 = 7 write the output block of target block t / 8 back;
  under the hypothesis that each such block holds the tiled result at its entries, the [3, 8192] output array
  ends holding the tiled result at every entry (column col is covered by the point 8 · (col / 1024) + 7), and
  the transposed array the program returns holds it at (col, d).
-/
import proofs.«170057_j75685913690724_2_alg».proof.Proof.Blocks

noncomputable section

namespace Cert.KernelIdeal.Final

open Cert.KernelIdeal Cert.KernelIdeal.Gen Cert.KernelIdeal.Blocks Idealize.ShloMosaic Idealize.ShloMosaic.ValueIdx
open Idealize.ShloMosaic.TcCoe Idealize.SL.Sem
open Idealize.ShloMosaic.Pipeline (Dat)

variable (m : (ℓ : Loc nD τ sig) → Buf (Elt Ideal) ℓ)

/-- The tiled result as contents of the [3, 8192] output array. -/
def G (c : Dev nD) : S3x8192.Idx → EReal := fun idx => Cert.NBody.kacc (Y m c) (MG m c) (idx 0) (idx 1)

/-- Entry y of the output block at point t is entry (y 0, 1024 · (t / 8) + y 1) of the array. -/
theorem emb3 (t : Fin cfg0.N) (y : S3x1024.Idx) :
    (((cfg0.win 3).blk t).view.emb y : S3x8192.Idx) = ix2 (y 0) (Cert.NBody.row (jt t) (y 1)) := by
  funext a
  apply Fin.ext
  match a with
  | ⟨0, _⟩ =>
    show win0_3.index t 0 * 3 + 1 * (y 0).val = (y 0).val
    rw [(idx_facts t).2.2.2.2.2.2.1]; omega
  | ⟨1, _⟩ =>
    show win0_3.index t 1 * 1024 + 1 * (y 1).val = 1024 * (t.val / 8) + (y 1).val
    rw [(idx_facts t).2.2.2.2.2.2.2]; omega

/-- An index of the array is in point t's block iff each coordinate is in the block's range on its axis. -/
theorem mem_blk3 (t : Fin cfg0.N) (i : S3x8192.Idx) :
    i ∈ ((cfg0.win 3).blk t).view.set ↔ ∀ a : Fin 2, win0_3.index t a * S3x1024.size a ≤ (i a).val
      ∧ (i a).val < win0_3.index t a * S3x1024.size a + S3x1024.size a := by
  show i ∈ ((View.whole main_v4).slice (win0_3.rect t)).set ↔ _
  rw [View.set_slice_whole, Rect.mem_set_unit]
  exact Iff.rfl

/-- Every entry of the array is in the block of a point that writes back: column col in that of 8 · (col / 1024) + 7. -/
theorem cover3 (i : S3x8192.Idx) :
    ∃ t : Fin cfg0.N, (cfg0.win 3).flush t = true ∧ i ∈ ((cfg0.win 3).blk t).view.set := by
  have hN : cfg0.N = 64 := N_0
  have h0 : (i 0).val < 3 := (i 0).isLt
  have h1 : (i 1).val < 8192 := (i 1).isLt
  have hlt : 8 * ((i 1).val / 1024) + 7 < cfg0.N := by omega
  refine ⟨⟨8 * ((i 1).val / 1024) + 7, hlt⟩, (flush0_3 _).mpr (by show (8 * ((i 1).val / 1024) + 7) % 8 = 7; omega), ?_⟩
  rw [mem_blk3]
  obtain ⟨-, -, -, -, -, -, e0, e1⟩ := idx_facts ⟨8 * ((i 1).val / 1024) + 7, hlt⟩
  have e1' : win0_3.index ⟨8 * ((i 1).val / 1024) + 7, hlt⟩ (1 : Fin 2) = (i 1).val / 1024 := by
    rw [e1]; show (8 * ((i 1).val / 1024) + 7) / 8 = (i 1).val / 1024; omega
  intro a
  match a with
  | ⟨0, _⟩ =>
    show win0_3.index _ (0 : Fin 2) * 3 ≤ (i 0).val ∧ (i 0).val < win0_3.index _ (0 : Fin 2) * 3 + 3
    rw [e0]; omega
  | ⟨1, _⟩ =>
    show win0_3.index _ (1 : Fin 2) * 1024 ≤ (i 1).val ∧ (i 1).val < win0_3.index _ (1 : Fin 2) * 1024 + 1024
    rw [e1']; omega

variable (hout : ∀ (c : Dev nD) (t : Fin cfg0.N), t.val % 8 = 7 → ∀ (d : Fin 3) (j : Fin 1024),
  ((outsAt0 m c t.val t.isLt).1 : Vec Ideal S3x1024 .f32) (ix2 d j)
    = Cert.NBody.kacc (Y m c) (MG m c) d (Cert.NBody.row (jt t) j))

include hout in
/-- What a point that writes back writes is its block of the tiled result. -/
theorem flushed_eq (c : Dev nD) (t : Fin cfg0.N) (hf : (cfg0.win 3).flush t = true) :
    (dats m 0 c).flushed 3 t = ((cfg0.win 3).blk t).view.read (Elt Ideal) (G m c) := by
  have h7 : t.val % 8 = 7 := (flush0_3 t).mp hf
  show (cfg0.win 3).cut (grid0.coords t) ((dats m 0 c).after 3 t) = _
  rw [after0_3]
  refine funext fun (y : S3x1024.Idx) => ?_
  show ((outsAt0 m c t.val t.isLt).1 : Vec Ideal S3x1024 .f32) y = G m c (((cfg0.win 3).blk t).view.emb y)
  refine ((congrArg ((outsAt0 m c t.val t.isLt).1 : Vec Ideal S3x1024 .f32) (eq_ix2 y)).trans
    (hout c t h7 (y 0) (y 1))).trans ?_
  exact (congrArg (G m c) (emb3 t y)).symm

include hout in
/-- The output array of the region ends holding the tiled result. -/
theorem final3 (c : Dev nD) :
    (dats m 0 c).arrAt 3 cfg0.N = (fun idx : S3x8192.Idx => Cert.NBody.kacc (Y m c) (MG m c) (idx 0) (idx 1)) :=
  (dats m 0 c).arrAt_eq_of_cover 3 (G m c) (flushed_eq m hout c) cover3

include hout in
/-- What the program returns: the transposed output array, the tiled result at (col, d). -/
theorem tail_v5 (c : Dev nD) :
    (Pipeline.afterTail₀ cfgs (dats m) 0 (V0 m) [hostOps1] c main_v5 : S8192x3.Idx → EReal)
      = (fun idx : S8192x3.Idx => Cert.NBody.kacc (Y m c) (MG m c) (idx 1) (idx 0)) := by
  unfold Pipeline.afterTail₀
  show StableHlo.after hostOps1 _ (Proc.devRef .tc main_v5) = _
  after_results
  refine (congrArg (fun x => transpose S8192x3 [1, 0] x Gen.transposes_S3x8192_S8192x3_1_0)
    ((Pipeline.withArrays_arr spec0 launch0.win.arr_inj c _ _ 3).trans (final3 m hout c))).trans ?_
  funext idx
  show transpose S8192x3 [1, 0] (G m c) Gen.transposes_S3x8192_S8192x3_1_0 idx = _
  refine (congrArg (transpose S8192x3 [1, 0] (G m c) Gen.transposes_S3x8192_S8192x3_1_0) (eq_ix2 idx)).trans ?_
  exact transpose_ix2_apply (G m c) Gen.transposes_S3x8192_S8192x3_1_0 (idx 0) (idx 1)

include hout in
/-- The run of the tiled program: it returns the tiled result, transposed, and leaves its arguments as launched. -/
theorem run (ρ : Dev nD → PrngReg) :
    θ_run defs (onTc (τ := τ) (main (F := Ideal))) ⟨m, fun _ => 0, ρ⟩ (fun r => ∀ c : Dev nD,
      r.2.mem ((c.tc : Thread nD τ).loc main_v5)
        = (fun idx : S8192x3.Idx => Cert.NBody.kacc (Y m c) (MG m c) (idx 1) (idx 0))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_v5 (Pipeline.mem_restRefs_of main_v5 (by decide) (by decide))).trans (tail_v5 m hout c),
      ((h c).2 main_arg0 (Pipeline.mem_restRefs_of main_arg0 (by decide) (by decide))).trans (W_main_arg0 m (dats m) c),
      ((h c).1 0).trans (((dats m 0 c).arrAt_in 0 rfl _).trans ((A_eq m c 0).trans (V_main_arg1 m c))),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.Final

end
-- ==== Proof.RefRead.lean ====
/-
  The dense program read at an index.  Each stage of the reference is read at explicit coordinates:
  the squared norms |y a|², the Gram entries ⟨y a, y b⟩, the softened squared distance
  |y a|² + |y b|² − 2⟨y a, y b⟩ + ε, the pair factor (G · mass b) · (…)^(−3/2), and finally the two sums
  over the partners.  The result is the dense arrangement of the specification, entry by entry.
-/
import proofs.«170057_j75685913690724_2_alg».proof.Proof.Gen.ReferenceIdeal.Read
import proofs.«170057_j75685913690724_2_alg».proof.Proof.Spec

noncomputable section

namespace Cert.NBody.RefRead

open Cert.ReferenceIdeal Cert.ReferenceIdeal.Read Idealize.ShloMosaic Idealize.ShloMosaic.ValueIdx

variable (x1 : (⟨S8192x3, .f32⟩ : BufTy).Contents (Elt Ideal))
  (x2 : (⟨S8192, .f32⟩ : BufTy).Contents (Elt Ideal))
  (x3 : (⟨S_, .f32⟩ : BufTy).Contents (Elt Ideal))

/-- The positions by coordinates: body a, axis k. -/
abbrev pos : Fin 8192 → Fin 3 → EReal := fun a k => x1 (ix2 a k)

/-- The scaled masses G · mass j. -/
abbrev smass : Fin 8192 → EReal := fun j => x3 ix0 * x2 (ix1 j)

/-! ## Index equations: the composed index maps of the layout operations, by coordinates -/

theorem e_v1 (a : Fin 8192) (k : Fin 3) : idx_main_v1 (ix1 a) k = ix2 a k :=
  funext fun d => Fin.ext (by match d with | ⟨0, _⟩ => rfl | ⟨1, _⟩ => rfl)

theorem e_v24 (a b : Fin 8192) : idx_main_v2 (idx_main_v4 (ix2 a b)) = ix1 a :=
  funext fun d => Fin.ext (by match d with | ⟨0, _⟩ => rfl)

theorem e_v35 (a b : Fin 8192) : idx_main_v3 (idx_main_v5 (ix2 a b)) = ix1 b :=
  funext fun d => Fin.ext (by match d with | ⟨0, _⟩ => rfl)

theorem e_l8 (a b : Fin 8192) (k : Fin 3) : lidx_main_v8 (ix2 a b) k = ix2 a k :=
  funext fun d => Fin.ext (by match d with | ⟨0, _⟩ => rfl | ⟨1, _⟩ => rfl)

theorem e_r87 (a b : Fin 8192) (k : Fin 3) : idx_main_v7 (ridx_main_v8 (ix2 a b) k) = ix2 b k :=
  funext fun d => Fin.ext (by match d with | ⟨0, _⟩ => rfl | ⟨1, _⟩ => rfl)

theorem e_v1619 (a b : Fin 8192) : idx_main_v16 (idx_main_v19 (ix2 a b)) = ix1 b :=
  funext fun d => Fin.ext (by match d with | ⟨0, _⟩ => rfl)

theorem e_v21l22 (p : Fin 8192) (q : Fin 3) (k : Fin 8192) :
    idx_main_v21 (lidx_main_v22 (ix2 p q) k) = ix2 k p :=
  funext fun d => Fin.ext (by match d with | ⟨0, _⟩ => rfl | ⟨1, _⟩ => rfl)

theorem e_r22 (p : Fin 8192) (q : Fin 3) (k : Fin 8192) : ridx_main_v22 (ix2 p q) k = ix2 k q :=
  funext fun d => Fin.ext (by match d with | ⟨0, _⟩ => rfl | ⟨1, _⟩ => rfl)

theorem e_v2425 (p : Fin 8192) (q : Fin 3) : idx_main_v24 (idx_main_v25 (ix2 p q)) = ix1 p :=
  funext fun d => Fin.ext (by match d with | ⟨0, _⟩ => rfl)

theorem e_v23 (p k : Fin 8192) : idx_main_v23 (ix1 p) k = ix2 k p :=
  funext fun d => Fin.ext (by match d with | ⟨0, _⟩ => rfl | ⟨1, _⟩ => rfl)

/-! ## The stages at coordinates -/

/-- The squared norm of body a, summed from the float zero. -/
theorem v1_at (a : Fin 8192) : val_main_v1 (F := Ideal) x1 (ix1 a) = rd2 (pos x1) a := by
  rw [val_main_v1_apply, val_main_cst_apply]
  unfold rd2 zero
  refine congrArg (_ + ·) (Finset.sum_congr rfl fun k _ => ?_)
  rw [val_main_v0_apply, e_v1]
  rfl

/-- |y a|² + |y b|². -/
theorem v6_at (a b : Fin 8192) :
    val_main_v6 (F := Ideal) x1 (ix2 a b) = rd2 (pos x1) a + rd2 (pos x1) b := by
  rw [val_main_v6_apply, val_main_v4_apply, val_main_v2_apply, val_main_v5_apply, val_main_v3_apply,
    e_v24, e_v35, v1_at, v1_at]
  rfl

/-- The Gram entry ⟨y a, y b⟩. -/
theorem v8_at (a b : Fin 8192) : val_main_v8 (F := Ideal) x1 (ix2 a b) = rcross (pos x1) a b := by
  rw [val_main_v8_apply]
  unfold rcross
  refine Finset.sum_congr rfl fun k _ => ?_
  rw [val_main_v7_apply, e_l8, e_r87]

/-- The softened squared distance in the expanded form. -/
theorem v13_at (a b : Fin 8192) :
    val_main_v13 (F := Ideal) x1 (ix2 a b)
      = ((rd2 (pos x1) a + rd2 (pos x1) b) - two * rcross (pos x1) a b) + eps := by
  rw [val_main_v13_apply, val_main_v11_apply, val_main_v10_apply, val_main_v9_apply, val_main_cst_0_apply,
    val_main_v12_apply, val_main_cst_1_apply, v6_at, v8_at]
  rfl

/-- The pair factor of bodies a, b. -/
theorem v20_at (a b : Fin 8192) :
    val_main_v20 (F := Ideal) x1 x2 x3 (ix2 a b) = rf (pos x1) (smass x2 x3) a b := by
  rw [val_main_v20_apply, val_main_v19_apply, val_main_v18_apply, val_main_v17_apply, val_main_v16_apply,
    val_main_v15_apply, val_main_v14_apply, val_main_cst_2_apply, v13_at, e_v1619]
  rfl

/-- The dense program's result at (p, q). -/
theorem v27_at (p : Fin 8192) (q : Fin 3) :
    val_main_v27 (F := Ideal) x1 x2 x3 (ix2 p q) = racc (pos x1) (smass x2 x3) p q := by
  rw [val_main_v27_apply, val_main_v22_apply, val_main_v26_apply, val_main_v25_apply, val_main_v24_apply,
    val_main_v23_apply, val_main_cst_3_apply, e_v2425]
  unfold racc zero
  have h1 : ∀ k : Fin 8192,
      (val_main_v21 (F := Ideal) x1 x2 x3) (lidx_main_v22 (ix2 p q) k) * x1 (ridx_main_v22 (ix2 p q) k)
        = rf (pos x1) (smass x2 x3) k p * pos x1 k q := fun k => by
    rw [val_main_v21_apply, e_v21l22, e_r22, v20_at]
  have h2 : ∀ k : Fin 8192,
      (val_main_v20 (F := Ideal) x1 x2 x3) (idx_main_v23 (ix1 p) k) = rf (pos x1) (smass x2 x3) k p :=
    fun k => by rw [e_v23, v20_at]
  rw [Finset.sum_congr rfl fun k _ => h1 k, Finset.sum_congr rfl fun k _ => h2 k]
  rfl

/-- The dense program is the dense arrangement of the specification, entry by entry. -/
theorem ref_eq (x1 : (⟨Cert.ReferenceIdeal.S8192x3, .f32⟩ : BufTy).Contents (Elt Ideal))
    (x2 : (⟨Cert.ReferenceIdeal.S8192, .f32⟩ : BufTy).Contents (Elt Ideal))
    (x3 : (⟨Cert.ReferenceIdeal.S_, .f32⟩ : BufTy).Contents (Elt Ideal))
    (i : Cert.ReferenceIdeal.S8192x3.Idx) :
    Cert.ReferenceIdeal.Read.val_main_v27 (F := Ideal) x1 x2 x3 i
      = Cert.NBody.racc (fun a k => x1 (ValueIdx.ix2 a k))
          (fun j => x3 ValueIdx.ix0 * x2 (ValueIdx.ix1 j)) (i 0) (i 1) := by
  rw [eq_ix2 i]
  exact v27_at x1 x2 x3 (i 0) (i 1)

end Cert.NBody.RefRead

end
-- ==== Proof.LibRealSums.lean ====
/-
  Finite sums of real numbers inside the extended reals, and a quotient moved across such a sum.

  General facts, with no program in sight: `Fin' x` says that the extended real `x` is a real; a finite sum and a sum of two such are
  again real (`fin'_sum`, `fin'_add`), the coercion of a finite real sum is the sum of the coercions (`coe_sum`), the inverse of any
  extended real is a real (`fin'_inv`), and `div_sum_mul`: for real `a c`, `h c` and any `D ≠ 0`,
  `(∑ c, a c · h c) / D = ∑ c, (a c / D) · h c` for the extended reals' own division.  The use: a row normalised before a
  matrix product against the same row normalised after it.

  One program divides every entry of a row of `a` by the row's total `D` and then takes the row's inner product with a
  column of `h`; the other takes the inner product first and divides once.  On the extended reals a quotient by a nonzero
  `D` is the product with the inverse of `D`, which is always a real, and a real factor moves across a finite sum of REAL
  terms — but not across a sum that may hold both infinities, which is why every entry of `a` and `h` is asked to be a real here.
  (Division by zero is not a product at all on the extended reals, hence `D ≠ 0`.)
-/
import Idealize.ShloMosaic.PureOps.Ideal

noncomputable section

open scoped BigOperators

namespace Cert.Lib.RealSums

open Idealize.ShloMosaic

/-- "Neither infinity": the extended real is a real number. -/
def Fin' (x : EReal) : Prop := x ≠ ⊤ ∧ x ≠ ⊥

theorem Fin'.exists_real {x : EReal} (h : Fin' x) : ∃ r : ℝ, x = (r : EReal) :=
  ⟨x.toReal, (EReal.coe_toReal h.1 h.2).symm⟩

theorem fin'_coe (r : ℝ) : Fin' (r : EReal) := ⟨EReal.coe_ne_top r, EReal.coe_ne_bot r⟩

/-- The coercion of a finite sum of reals is the sum of the coercions. -/
theorem coe_sum {ι : Type*} (s : Finset ι) (f : ι → ℝ) : ((∑ c ∈ s, f c : ℝ) : EReal) = ∑ c ∈ s, (f c : EReal) := by
  classical
  induction s using Finset.induction_on with
  | empty => simp
  | insert a s ha ih => rw [Finset.sum_insert ha, Finset.sum_insert ha, EReal.coe_add, ih]

/-- A finite sum of reals is a real. -/
theorem fin'_sum {ι : Type*} (s : Finset ι) (a : ι → EReal) (ha : ∀ c, Fin' (a c)) : Fin' (∑ c ∈ s, a c) := by
  choose a' ha' using fun c => (ha c).exists_real
  have : (∑ c ∈ s, a c) = ((∑ c ∈ s, a' c : ℝ) : EReal) := by
    rw [coe_sum]; exact Finset.sum_congr rfl fun c _ => ha' c
  rw [this]; exact fin'_coe _

theorem fin'_add {x y : EReal} (hx : Fin' x) (hy : Fin' y) : Fin' (x + y) := by
  obtain ⟨a, rfl⟩ := hx.exists_real
  obtain ⟨b, rfl⟩ := hy.exists_real
  rw [← EReal.coe_add]; exact fin'_coe _

theorem fin'_zero : Fin' (0 : EReal) := by
  rw [← EReal.coe_zero]; exact fin'_coe _

/-- The inverse of an extended real is never an infinity (the inverses of both infinities, and of zero, are zero). -/
theorem fin'_inv (D : EReal) : Fin' D⁻¹ := by
  induction D using EReal.rec
  · rw [EReal.inv_bot]; exact fin'_zero
  · rw [← EReal.coe_inv]; exact fin'_coe _
  · rw [EReal.inv_top]; exact fin'_zero

/-- THE LAW. For real entries and a nonzero divisor, dividing the inner product is the inner product of the divided entries:
    off zero a quotient is the product with the divisor's inverse, which is a real, and a real factor moves across a sum of reals. -/
theorem div_sum_mul {ι : Type*} (s : Finset ι) (a h : ι → EReal) (D : EReal)
    (ha : ∀ c, Fin' (a c)) (hh : ∀ c, Fin' (h c)) (hD0 : D ≠ 0) :
    Ideal.div (∑ c ∈ s, a c * h c) D = ∑ c ∈ s, Ideal.div (a c) D * h c := by
  obtain ⟨e, he⟩ := (fin'_inv D).exists_real
  choose a' ha' using fun c => (ha c).exists_real
  choose h' hh' using fun c => (hh c).exists_real
  have e1 : (∑ c ∈ s, a c * h c) = ((∑ c ∈ s, a' c * h' c : ℝ) : EReal) := by
    rw [coe_sum]; exact Finset.sum_congr rfl fun c _ => by rw [ha' c, hh' c, EReal.coe_mul]
  have e2 : (∑ c ∈ s, Ideal.div (a c) D * h c) = ((∑ c ∈ s, a' c * e * h' c : ℝ) : EReal) := by
    rw [coe_sum]
    exact Finset.sum_congr rfl fun c _ => by rw [Ideal.div, if_neg hD0, he, ha' c, hh' c, EReal.coe_mul, EReal.coe_mul]
  rw [e1, e2, Ideal.div, if_neg hD0, he, ← EReal.coe_mul, Finset.sum_mul]
  exact congrArg _ (Finset.sum_congr rfl fun c _ => by ring)

end Cert.Lib.RealSums

end
-- ==== Proof.Algebra.lean ====
/-
  The two arrangements of the softened N-body acceleration agree when every position and every scaled mass is a real.

  With real inputs every intermediate quantity is (the coercion of) a real, so the identity is an identity of real
  numbers: the squared distance written as a sum of squared differences equals |y i|² + |y j|² − 2⟨y i, y j⟩; for a
  positive real x the cube of the reciprocal square root is x^(−3/2); the sum over 8192 bodies is the sum of the sums
  over eight blocks of 1024; and a factor not depending on the summation index moves out of the sum.
-/
import proofs.«170057_j75685913690724_2_alg».proof.Proof.Spec
import proofs.«170057_j75685913690724_2_alg».proof.Proof.LibRealSums
import Mathlib.Analysis.SpecialFunctions.Pow.Real
import Mathlib.Analysis.SpecialFunctions.Sqrt
import Mathlib.Algebra.BigOperators.Fin
import Mathlib.Tactic

noncomputable section

open scoped BigOperators

namespace Cert.NBody

open Idealize.ShloMosaic
open Cert.Lib.RealSums

/-! ## The float literals -/

theorem two_eq : two = ((2 : ℝ) : EReal) := by
  unfold two; simp [Ideal.ofBits, Ideal.ieee, -EReal.coe_mul]; norm_num

theorem m15_eq : m15 = ((-(3 / 2) : ℝ) : EReal) := by
  unfold m15; simp [Ideal.ofBits, Ideal.ieee, -EReal.coe_mul]; norm_num

theorem zero_eq : zero = 0 := by
  unfold zero; simp [Ideal.ofBits, Ideal.ieee]

/-- The softening is a positive real (13743895 · 2⁻³⁷). -/
theorem eps_pos : ∃ e : ℝ, 0 < e ∧ eps = (e : EReal) := by
  refine ⟨13743895 * (2 : ℝ) ^ (-37 : Int), by positivity, ?_⟩
  unfold eps; simp [Ideal.ofBits, Ideal.ieee, -EReal.coe_mul]

/-! ## Eight blocks of 1024 make 8192 -/

/-- Block number and position in the block, against the body number. -/
def rowEquiv : Fin 8 × Fin 1024 ≃ Fin 8192 where
  toFun p := row p.1 p.2
  invFun i := (⟨i.val / 1024, by have := i.isLt; omega⟩, ⟨i.val % 1024, Nat.mod_lt _ (by norm_num)⟩)
  left_inv p := by
    rcases p with ⟨b, i⟩
    have hb := b.isLt
    have hi := i.isLt
    apply Prod.ext
    · apply Fin.ext; show (1024 * b.val + i.val) / 1024 = b.val; omega
    · apply Fin.ext; show (1024 * b.val + i.val) % 1024 = i.val; omega
  right_inv i := by
    apply Fin.ext; show 1024 * (i.val / 1024) + i.val % 1024 = i.val; omega

/-- A sum over all bodies is the sum over the blocks of the sums over each block. -/
theorem sum_blocks {α : Type*} [AddCommMonoid α] (g : Fin 8192 → α) :
    ∑ i : Fin 8192, g i = ∑ b : Fin 8, ∑ i : Fin 1024, g (row b i) := by
  rw [← Fintype.sum_prod_type' (f := fun b i => g (row b i))]
  exact (Fintype.sum_equiv rowEquiv (fun p => g (row p.1 p.2)) g (fun _ => rfl)).symm

/-! ## The power −3/2 as the cube of the reciprocal root -/

theorem rpow_m15 {x : ℝ} (hx : 0 < x) :
    x ^ (-(3 / 2) : ℝ) = ((√x)⁻¹ * (√x)⁻¹) * (√x)⁻¹ := by
  have h : (√x)⁻¹ = x ^ (-(1 / 2) : ℝ) := by rw [Real.sqrt_eq_rpow, Real.rpow_neg hx.le]
  rw [h, ← Real.rpow_add hx, ← Real.rpow_add hx]; norm_num

/-! ## Real inputs -/

variable (Y : Fin 8192 → Fin 3 → ℝ) (M : Fin 8192 → ℝ)

/-- Real positions and real scaled masses, seen in the extended reals. -/
def cy : Fin 8192 → Fin 3 → EReal := fun i k => (Y i k : EReal)
def cm : Fin 8192 → EReal := fun j => (M j : EReal)

/-- The squared distance, a real. -/
def D (i j : Fin 8192) : ℝ :=
  ((Y i 0 - Y j 0) * (Y i 0 - Y j 0) + (Y i 1 - Y j 1) * (Y i 1 - Y j 1)) + (Y i 2 - Y j 2) * (Y i 2 - Y j 2)

theorem D_nonneg (i j : Fin 8192) : 0 ≤ D Y i j := by
  unfold D
  have h0 := mul_self_nonneg (Y i 0 - Y j 0)
  have h1 := mul_self_nonneg (Y i 1 - Y j 1)
  have h2 := mul_self_nonneg (Y i 2 - Y j 2)
  linarith

theorem kd2_coe (i j : Fin 8192) : kd2 (cy Y) i j = (D Y i j : EReal) := by
  simp only [kd2, cy, D, EReal.coe_add, EReal.coe_mul, EReal.coe_sub]

/-- The squared distance in the dense arrangement's form. -/
theorem D_dense (i j : Fin 8192) :
    ((∑ k : Fin 3, Y i k * Y i k) + (∑ k : Fin 3, Y j k * Y j k)) - 2 * (∑ k : Fin 3, Y i k * Y j k) = D Y i j := by
  simp only [Fin.sum_univ_three, D]; ring

theorem rd2_coe (i : Fin 8192) : rd2 (cy Y) i = ((∑ k : Fin 3, Y i k * Y i k : ℝ) : EReal) := by
  simp only [rd2, zero_eq, zero_add, cy, coe_sum, EReal.coe_mul]

theorem rcross_coe (i j : Fin 8192) : rcross (cy Y) i j = ((∑ k : Fin 3, Y i k * Y j k : ℝ) : EReal) := by
  simp only [rcross, cy, coe_sum, EReal.coe_mul]

/-- The pair factor, a real, for a softening e. -/
def F (e : ℝ) (i j : Fin 8192) : ℝ :=
  M j * (((√(D Y i j + e))⁻¹ * (√(D Y i j + e))⁻¹) * (√(D Y i j + e))⁻¹)

variable {e : ℝ} (he : 0 < e) (heps : eps = (e : EReal))

include he heps

theorem kf_coe (i j : Fin 8192) : kf (cy Y) (cm M) i j = (F Y M e i j : EReal) := by
  have hx : 0 < D Y i j + e := by have := D_nonneg Y i j; linarith
  unfold kf
  rw [kd2_coe, heps, ← EReal.coe_add, Ideal.rsqrt_coe, if_neg (not_lt.2 hx.le), if_neg hx.ne']
  simp only [cm, F, EReal.coe_mul]

theorem rf_coe (i j : Fin 8192) : rf (cy Y) (cm M) i j = (F Y M e i j : EReal) := by
  have hx : 0 < D Y i j + e := by have := D_nonneg Y i j; linarith
  unfold rf
  rw [rd2_coe, rd2_coe, rcross_coe, two_eq, m15_eq, heps, ← EReal.coe_add, ← EReal.coe_mul, ← EReal.coe_sub,
    ← EReal.coe_add, Ideal.pow_coe_coe, D_dense, Real.rpow_eq_pow, rpow_m15 hx]
  simp only [cm, F, EReal.coe_mul]

theorem kcontrib_coe (b : Fin 8) (d : Fin 3) (j : Fin 8192) :
    kcontrib (cy Y) (cm M) b d j
      = (((∑ i : Fin 1024, Y (row b i) d * F Y M e (row b i) j)
          - Y j d * ∑ i : Fin 1024, F Y M e (row b i) j : ℝ) : EReal) := by
  unfold kcontrib
  simp only [kf_coe Y M he heps, cy, EReal.coe_sub, EReal.coe_mul, coe_sum]

theorem kacc_coe (d : Fin 3) (j : Fin 8192) :
    kacc (cy Y) (cm M) d j
      = ((∑ b : Fin 8, ((∑ i : Fin 1024, Y (row b i) d * F Y M e (row b i) j)
          - Y j d * ∑ i : Fin 1024, F Y M e (row b i) j) : ℝ) : EReal) := by
  unfold kacc
  simp only [kcontrib_coe Y M he heps]
  rw [coe_sum]

theorem racc_coe (j : Fin 8192) (d : Fin 3) :
    racc (cy Y) (cm M) j d
      = (((∑ i : Fin 8192, F Y M e i j * Y i d) - Y j d * ∑ i : Fin 8192, F Y M e i j : ℝ) : EReal) := by
  unfold racc
  simp only [rf_coe Y M he heps, zero_eq, zero_add, cy, EReal.coe_sub, EReal.coe_mul, coe_sum]

omit he heps

/-- The identity in the reals: the blocks' contributions add up to the dense expression. -/
theorem blocks_eq_dense (e : ℝ) (d : Fin 3) (j : Fin 8192) :
    (∑ b : Fin 8, ((∑ i : Fin 1024, Y (row b i) d * F Y M e (row b i) j)
        - Y j d * ∑ i : Fin 1024, F Y M e (row b i) j))
      = (∑ i : Fin 8192, F Y M e i j * Y i d) - Y j d * ∑ i : Fin 8192, F Y M e i j := by
  rw [Finset.sum_sub_distrib, ← Finset.mul_sum, ← sum_blocks (fun i => Y i d * F Y M e i j),
    ← sum_blocks (fun i => F Y M e i j)]
  congr 1
  exact Finset.sum_congr rfl fun i _ => mul_comm _ _

/-- With real positions and real scaled masses the tiled and the dense arrangement give the same entry. -/
theorem kacc_eq_racc (y : Fin 8192 → Fin 3 → EReal) (mg : Fin 8192 → EReal)
    (hy : ∀ i k, ∃ r : ℝ, y i k = (r : EReal)) (hmg : ∀ j, ∃ r : ℝ, mg j = (r : EReal)) (d : Fin 3) (j : Fin 8192) :
    kacc y mg d j = racc y mg j d := by
  choose Y hY using hy
  choose M hM using hmg
  obtain rfl : y = cy Y := funext fun i => funext fun k => hY i k
  obtain rfl : mg = cm M := funext hM
  obtain ⟨e, he, heps⟩ := eps_pos
  rw [kacc_coe Y M he heps, racc_coe Y M he heps, blocks_eq_dense]

end Cert.NBody

end
-- ==== Proof.Finite.lean ====
/-
  The precondition "every input is finite" read back: each entry of the positions, each scaled mass and the last
  scalar is a real.

  The precondition is the conjunction of four tests "all entries x satisfy |x| < +∞".  In the extended reals
  |x| = max x (−x) is +∞ at both infinities, so the strict comparison with +∞ holds exactly at the reals.
-/
import proofs.«170057_j75685913690724_2_alg».proof.Pre_finite_inputs
import Idealize.ShloMosaic.Lib.ReduceAll
import Idealize.ShloMosaic.Lib.ValueIdx

noncomputable section

namespace Cert.NBody

open Idealize.ShloMosaic
open Cert.Pre_finite_inputs

/-- The rank-0 shape has one index. -/
instance subsingleton_S_Idx : Subsingleton S_.Idx := ⟨fun a b => funext fun d => d.elim0⟩

/-- The pattern 0x7F800000 denotes +∞. -/
theorem ofBits_inf : Ideal.ofBits .f32 0x7F800000#32 = ⊤ := by
  simp [Ideal.ofBits, Ideal.ieee]

/-- |x| < +∞ in the extended reals says that x is a real. -/
theorem real_of_abs_lt_top (x : EReal)
    (h : Ideal.cmp .olt (max x (-x)) (Ideal.ofBits .f32 0x7F800000#32) = 1#1) : ∃ r : ℝ, x = (r : EReal) := by
  rw [ofBits_inf] at h
  induction x using EReal.rec
  · simp [Ideal.cmp] at h
  · exact ⟨_, rfl⟩
  · simp [Ideal.cmp] at h

variable [Facts]

theorem real_of_pre (x0 : FVec Ideal S_ .f32) (x1 : FVec Ideal S8192x3 .f32) (x2 : FVec Ideal S8192 .f32)
    (x3 : FVec Ideal S_ .f32)
    (h : fn (F := Ideal) x0 x1 x2 x3 = fun _ => 1#1) :
    (∀ i, ∃ r : ℝ, x1 i = (r : EReal)) ∧ (∀ i, ∃ r : ℝ, x2 i = (r : EReal)) ∧ (∀ i, ∃ r : ℝ, x3 i = (r : EReal)) := by
  have h0 := congrFun h ValueIdx.ix0
  dsimp only [fn, fn_part1] at h0
  change IntOp.andi (IntOp.andi (IntOp.andi _ _) _) _ = 1#1 at h0
  obtain ⟨h012, h3⟩ := IntOp.andi_eq_one.1 h0
  obtain ⟨h01, h2⟩ := IntOp.andi_eq_one.1 h012
  obtain ⟨_, h1⟩ := IntOp.andi_eq_one.1 h01
  refine ⟨fun i => ?_, fun i => ?_, fun i => ?_⟩
  · exact real_of_abs_lt_top (x1 i) (Host.reduce_andi_all _ _ _ _ _ h1 i)
  · exact real_of_abs_lt_top (x2 i) (Host.reduce_andi_all _ _ _ _ _ h2 i)
  · exact real_of_abs_lt_top (x3 i) (Host.reduce_andi_all _ _ _ _ _ h3 i)

end Cert.NBody

end
-- ==== Proof.lean ====
/-
  The softened N-body acceleration computed in tiles equals the dense computation, over the extended reals.

  The tiled program lays the positions out transposed, scales the masses by G, and for each block of 1024 target
  bodies walks over the eight blocks of 1024 partner bodies, adding to a 3 × 1024 accumulator, for every target j and
  axis d,   Σ_i y[i,d] · f(i,j)  −  y[j,d] · Σ_i f(i,j),   f(i,j) = G·mass[j] · (1/√(|y_i − y_j|² + ε))³,
  the squared distance taken as the sum of the squared coordinate differences; after the eighth block the accumulator
  is the output block, and the output is transposed back to 8192 × 3.
  The dense program computes |y_i|² + |y_j|² − 2⟨y_i, y_j⟩ + ε, raises it to the power −3/2, and takes both sums over all
  8192 partners at once.

  The two agree whenever the inputs are real numbers (the precondition): the squared distances agree by expanding the
  squares; they are positive after softening, where the cube of the reciprocal root is the power −3/2; every pair
  factor is then real, so the sum over the partners may be taken block by block and the product with y[j,d]
  distributes over the blocks.

  The parts: what one grid point leaves in the accumulator (Pieces), that value entry by entry (Payload), the recurrence
  over the grid points (Chain) and its closed form (Invariant), the blocks as parts of the argument arrays (Blocks), the
  output array and the transposed result (Final), the dense program read entry by entry (RefRead), the inputs are real
  (Finite), the algebra (Algebra).
-/
import proofs.«170057_j75685913690724_2_alg».proof.Defs
import proofs.«170057_j75685913690724_2_alg».proof.Proof.Gen.Kernel
import proofs.«170057_j75685913690724_2_alg».proof.Proof.Gen.Kernel.Skeleton
import proofs.«170057_j75685913690724_2_alg».proof.Proof.Gen.Kernel.Launch
import proofs.«170057_j75685913690724_2_alg».proof.Proof.Gen.Kernel.Points
import proofs.«170057_j75685913690724_2_alg».proof.Proof.Gen.Kernel.Frame
import proofs.«170057_j75685913690724_2_alg».proof.Proof.Gen.KernelIdeal
import proofs.«170057_j75685913690724_2_alg».proof.Proof.Gen.KernelIdeal.Skeleton
import proofs.«170057_j75685913690724_2_alg».proof.Proof.Gen.KernelIdeal.Launch
import proofs.«170057_j75685913690724_2_alg».proof.Proof.Gen.KernelIdeal.Points
import proofs.«170057_j75685913690724_2_alg».proof.Proof.Gen.KernelIdeal.Frame
import proofs.«170057_j75685913690724_2_alg».proof.Proof.Gen.ReferenceIdeal
import proofs.«170057_j75685913690724_2_alg».proof.Proof.Gen.ReferenceIdeal.Run
import proofs.«170057_j75685913690724_2_alg».proof.Proof.Gen.ReferenceIdeal.Read
import proofs.«170057_j75685913690724_2_alg».proof.Proof.Gen.Pre_finite_inputs
import proofs.«170057_j75685913690724_2_alg».proof.Proof.Invariant
import proofs.«170057_j75685913690724_2_alg».proof.Proof.Final
import proofs.«170057_j75685913690724_2_alg».proof.Proof.RefRead
import proofs.«170057_j75685913690724_2_alg».proof.Proof.Algebra
import proofs.«170057_j75685913690724_2_alg».proof.Proof.Finite
import Idealize.ShloMosaic.Adequacy
import Idealize.ShloMosaic.Init

noncomputable section

namespace Cert.Proof

open Idealize.ShloMosaic Idealize.ShloMosaic.TcCoe Idealize.ShloMosaic.ValueIdx Idealize.SL.Sem

/-- The three programs run to the end and leave their arguments as launched. -/
theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The tiled program's text was not rewritten for its reading over the extended reals. -/
theorem preserves : Cert.preserves_Kernel_KernelIdeal := trivial

/-- Both programs return, at (j, d), the acceleration of body j along axis d: the tiled sum of the eight partner blocks
    on one side, the dense sum on the other, equal because the inputs are real. -/
theorem algebraic : Cert.algebraic_KernelIdeal_ReferenceIdeal := by
  intro m ρ m' ρ' hpre hagree
  refine ⟨fun c => (fun idx : Cert.KernelIdeal.S8192x3.Idx =>
      Cert.NBody.kacc (Cert.KernelIdeal.Blocks.Y m c) (Cert.KernelIdeal.Blocks.MG m c) (idx 1) (idx 0)),
    Cert.KernelIdeal.Final.run m (Cert.KernelIdeal.Invariant.out_eq m) ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v27_eq _ _ _).trans ?_
  funext idx
  rw [Cert.NBody.RefRead.ref_eq, (hagree c).2.1, (hagree c).2.2.1, (hagree c).2.2.2]
  obtain ⟨h1, h2, h3⟩ := Cert.NBody.real_of_pre _ _ _ _ (hpre c)
  refine (Cert.NBody.kacc_eq_racc (Cert.KernelIdeal.Blocks.Y m c) (Cert.KernelIdeal.Blocks.MG m c)
    (fun i k => h1 (ix2 i k)) (fun j => ?_) (idx 1) (idx 0)).symm
  obtain ⟨a, ha⟩ := h3 ix0
  obtain ⟨b, hb⟩ := h2 (ix1 j)
  refine ⟨a * b, ?_⟩
  unfold Cert.KernelIdeal.Blocks.MG
  rw [EReal.coe_mul, ← ha, ← hb]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
